-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x128 : Shape := ⟨2, ![256, 128]⟩
abbrev S128 : Shape := ⟨1, ![128]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S256x128 .f32) (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16384x256 .f32) (main_arg1 : FVec F S256x128 .f32) (main_arg2 : FVec F S128 .f32) (main_arg3 : FVec F S256x128 .f32) (main_arg4 : FVec F S128 .f32) (main_arg5 : FVec F S256x128 .f32) (main_arg6 : FVec F S128 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S16384x256 : Shape := ⟨2, ![16384, 256]⟩
abbrev S256x128 : Shape := ⟨2, ![256, 128]⟩
abbrev S128 : Shape := ⟨1, ![128]⟩
abbrev S1x128 : Shape := ⟨2, ![1, 128]⟩
abbrev S16384x128 : Shape := ⟨2, ![16384, 128]⟩
abbrev S4096x256 : Shape := ⟨2, ![4096, 256]⟩
abbrev S4096x128 : Shape := ⟨2, ![4096, 128]⟩
abbrev S2048x128 : Shape := ⟨2, ![2048, 128]⟩
abbrev S2048x1 : Shape := ⟨2, ![2048, 1]⟩
abbrev S1024x128 : Shape := ⟨2, ![1024, 128]⟩
abbrev S2048x1024 : Shape := ⟨2, ![2048, 1024]⟩
abbrev S2048 : Shape := ⟨1, ![2048]⟩

abbrev nBuf : Space → Nat
  | .hbm => 14
  | .vmem => 23
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S16384x128, .bf16⟩
  | .hbm, ⟨11, _⟩ => ⟨S16384x128, .bf16⟩
  | .hbm, ⟨12, _⟩ => ⟨S16384x128, .bf16⟩
  | .hbm, ⟨13, _⟩ => ⟨S16384x128, .f32⟩
  | .local _ .vmem, ⟨0, _⟩ => ⟨S4096x256, .f32⟩
  | .local _ .vmem, ⟨1, _⟩ => ⟨S4096x256, .f32⟩
  | .local _ .vmem, ⟨2, _⟩ => ⟨S256x128, .f32⟩
  | .local _ .vmem, ⟨3, _⟩ => ⟨S1x128, .f32⟩
  | .local _ .vmem, ⟨4, _⟩ => ⟨S256x128, .f32⟩
  | .local _ .vmem, ⟨5, _⟩ => ⟨S1x128, .f32⟩
  | .local _ .vmem, ⟨6, _⟩ => ⟨S256x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S2048x128, .bf16⟩
  | .local _ .vmem, ⟨15, _⟩ => ⟨S2048x128, .bf16⟩
  | .local _ .vmem, ⟨16, _⟩ => ⟨S16384x128, .bf16⟩
  | .local _ .vmem, ⟨17, _⟩ => ⟨S16384x128, .bf16⟩
  | .local _ .vmem, ⟨18, _⟩ => ⟨S2048x128, .f32⟩
  | .local _ .vmem, ⟨19, _⟩ => ⟨S2048x128, .f32⟩
  | .local _ .vmem, ⟨20, _⟩ => ⟨S2048x1, .f32⟩
  | .local _ .vmem, ⟨21, _⟩ => ⟨S2048x1, .f32⟩
  | .local _ .vmem, ⟨22, _⟩ => ⟨S2048x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

@[reducible] def k1_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k1_mult1 (k1_t1 : Fin k1_t1_loop.trips) : BitVec 32 :=
  let c0_i32_17 : BitVec 32 := 0#32
  let c0_i32 : BitVec 32 := 0#32
  let c1_i32 : BitVec 32 := 1#32
  let arg8 : BitVec 32 := Scf.iv c0_i32 c1_i32 k1_t1
  let c1_i32_16 : BitVec 32 := 1#32
  let v20 : BitVec 32 := Scalar.muli arg8 c1_i32_16
  let v21 : BitVec 32 := Scalar.addi c0_i32_17 v20
  let c1024_i32 : BitVec 32 := 1024#32
  let v22 : BitVec 32 := Scalar.muli v21 c1024_i32
  v22
def k1_off1 (k1_t1 : Fin k1_t1_loop.trips) : Fin 2 → Nat :=
  let c0_i32_17 : BitVec 32 := 0#32
  let c0_i32 : BitVec 32 := 0#32
  let c1_i32 : BitVec 32 := 1#32
  let arg8 : BitVec 32 := Scf.iv c0_i32 c1_i32 k1_t1
  let c1_i32_16 : BitVec 32 := 1#32
  let v20 : BitVec 32 := Scalar.muli arg8 c1_i32_16
  let v21 : BitVec 32 := Scalar.addi c0_i32_17 v20
  let c1024_i32 : BitVec 32 := 1024#32
  let v22 : BitVec 32 := Scalar.muli v21 c1024_i32
  let v23 : BitVec 32 := v22
  let v24 : Index := Scalar.indexCast v23
  let c0_18 : Index := 0#32
  ![v24.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16384x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  packedbf16_S4096x128_S4096x128_0_0 : (Rect.unit (s := S4096x128) ![0, 0] S4096x128.size inb_S4096x128_S4096x128_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S1024x128 : 0 < S1024x128.numel
  shapeCasts_S1024x128_S1024x128 : S1024x128.ShapeCasts S1024x128
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x128 : S2048x1.Broadcasts S2048x128
  dot_S4096x256_S256x128_S4096x128_1_0_0_1_n_n_wf : DotDims.WF S4096x256 S256x128 S4096x128 [1] [0] [0] [1] [] []
  dot_S2048x128_S1024x128_S2048x1024_1_1_0_0_n_n_wf : DotDims.WF S2048x128 S1024x128 S2048x1024 [1] [1] [0] [0] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S16384x128.size a
  hwx0_7 : ∀ i : grid0.Coords, EltTy.bits .bf16 = 32 ∨ (Rect.block (s := S16384x128) S4096x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S16384x128.size a
  hwx0_8 : ∀ i : grid0.Coords, EltTy.bits .bf16 = 32 ∨ (Rect.block (s := S16384x128) S4096x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S16384x128.size a
  hwx0_9 : ∀ i : grid0.Coords, EltTy.bits .bf16 = 32 ∨ (Rect.block (s := S16384x128) S4096x128.size (cc0_transform_9 i) (hinb0_9 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .bf16 = 32 ∨ (Rect.block (s := S16384x128) S2048x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .bf16 = 32 ∨ (Rect.block (s := S16384x128) S16384x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16384x128.size a ≤ S16384x128.size a
  hwx1_2 : ∀ i : grid1.Coords, EltTy.bits .bf16 = 32 ∨ (Rect.block (s := S16384x128) S16384x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S16384x128.size a
  hwx1_3 : ∀ i : grid1.Coords, EltTy.bits .f32 = 32 ∨ (Rect.block (s := S16384x128) S2048x128.size (cc1_transform_3 i) (hinb1_3 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S4096x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S4096x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S4096x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S16384x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x256 : Shape := ⟨2, ![16384, 256]⟩
abbrev S256x128 : Shape := ⟨2, ![256, 128]⟩
abbrev S128 : Shape := ⟨1, ![128]⟩
abbrev S16384x128 : Shape := ⟨2, ![16384, 128]⟩
abbrev S1x128 : Shape := ⟨2, ![1, 128]⟩
abbrev S128x16384 : Shape := ⟨2, ![128, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S16384x128, .f32⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S1x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S1x128, .f32⟩
  | .hbm, ⟨17, _⟩ => ⟨S16384x128, .f32⟩
  | .hbm, ⟨18, _⟩ => ⟨S16384x128, .f32⟩
  | .hbm, ⟨19, _⟩ => ⟨S128x16384, .f32⟩
  | .hbm, ⟨20, _⟩ => ⟨S16384x16384, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384x1, .f32⟩
  | .hbm, ⟨27, _⟩ => ⟨S16384x16384, .f32⟩
  | .hbm, ⟨28, _⟩ => ⟨S16384x16384, .f32⟩
  | .hbm, ⟨29, _⟩ => ⟨S16384x16384, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x16384, .f32⟩
  | .hbm, ⟨34, _⟩ => ⟨S16384x16384, .f32⟩
  | .hbm, ⟨35, _⟩ => ⟨S16384x128, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x128_S128x16384_1_0 : S16384x128.Transposes [1, 0] S128x16384
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  dot_S16384x256_S256x128_S16384x128_1_0_0_1_n_n_wf : DotDims.WF S16384x256 S256x128 S16384x128 [1] [0] [0] [1] [] []
  dot_S16384x128_S128x16384_S16384x16384_1_0_0_1_n_n_wf : DotDims.WF S16384x128 S128x16384 S16384x16384 [1] [0] [0] [1] [] []
  dot_S16384x16384_S16384x128_S16384x128_1_0_0_1_n_n_wf : DotDims.WF S16384x16384 S16384x128 S16384x128 [1] [0] [0] [1] [] []

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.KernelRun.lean ====
/-
  The idealized kernel's run with its result NAMED.

  The whole program is three segments: three reshapes of the bias vectors on the host, the projection kernel,
  the attention kernel. Every weakly fair execution terminates; at the end each unscoped buffer holds the contents
  obtained by folding the segments over the launch memory. In particular the result array holds what the attention
  kernel's write-backs leave in it, and the seven argument arrays hold what they were launched with. This is the frame
  statement with one more conjunct read off the same final thread state.
-/
import proofs.«164752_j45981919871429_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result array at the last segment boundary's
    contents and the argument arrays as launched. -/
theorem run_named : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-- The result array at the end is what the attention kernel's write-backs leave in it. -/
theorem W3_result (c : Dev nD) :
    W3 m ρ c (Proc.devRef .tc main_v4) = (dat1 (V2 m ρ) c).arrAt 3 cfg1.N :=
  W3_arr m ρ c 3

end Cert.KernelIdeal.RunValue

end
-- ==== Proof.Region1Cover.lean ====
/-
  The attention kernel's blocks and the arrays they are blocks of.

  The attention kernel runs over eight grid points. At point `t` the query window holds rows
  `2048·t … 2048·t + 2047` of the query array, the key and value windows hold their whole arrays, and the
  output window's block is written back to the same rows of the result array. So a block's entry `(p, d)` of
  the queries is the array's entry `(2048·t + p, d)`, the key and value blocks are the arrays themselves, and
  — the eight output blocks tiling the `16384` rows — the result array ends holding any function `G` whose
  rows `2048·t + p` are what point `t` leaves in row `p` of its block.
-/
import proofs.«164752_j45981919871429_2_alg».proof.Proof.Gen.KernelIdeal.Frame
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The grid has eight points. -/
theorem cfg1_N : cfg1.N = 8 := N_1

/-- Row `p` of the block at point `t` is row `2048·t + p` of the array. -/
def row (t : Fin cfg1.N) (p : Fin 2048) : Fin 16384 :=
  ⟨2048 * t.val + p.val, by have ht : t.val < 8 := cfg1_N ▸ t.isLt; have hp := p.isLt; omega⟩

theorem row_val (t : Fin cfg1.N) (p : Fin 2048) : (row t p).val = 2048 * t.val + p.val := rfl

/-- The index maps, decided over the grid: the query and output windows' block index is `(t, 0)`, the key and value
    windows' is `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The input blocks -/

/-- The query block at point `t`: entry `(p, d)` is the query array's entry `(2048·t + p, d)`. -/
theorem qblock_apply (c : Dev nD) (t : Fin cfg1.N) (p : Fin 2048) (d : Fin 128) :
    iblk1 (F := Ideal) V c 0 t (ix2 p d) = (V c main_v3_0 : S16384x128.Idx → EReal) (ix2 (row t p) d) := by
  obtain ⟨e0, e1, -⟩ := idx_facts t
  unfold iblk1
  rw [View.read_apply]
  show (V c main_v3_0 : S16384x128.Idx → EReal) (((cfg1.win 0).blk t).view.emb (ix2 p d)) = _
  refine congrArg (V c main_v3_0 : S16384x128.Idx → EReal) (funext fun a => Fin.ext ?_)
  match a with
  | ⟨0, _⟩ => show win1_0.index t (0 : Fin 2) * 2048 + 1 * p.val = 2048 * t.val + p.val; omega
  | ⟨1, _⟩ => show win1_0.index t (1 : Fin 2) * 128 + 1 * d.val = d.val; omega

/-- The key block at any point is the key array. -/
theorem kblock_apply (c : Dev nD) (t : Fin cfg1.N) (j : Fin 16384) (d : Fin 128) :
    iblk1 (F := Ideal) V c 1 t (ix2 j d) = (V c main_v3_1 : S16384x128.Idx → EReal) (ix2 j d) := by
  obtain ⟨-, -, e0, e1, -⟩ := idx_facts t
  unfold iblk1
  rw [View.read_apply]
  show (V c main_v3_1 : S16384x128.Idx → EReal) (((cfg1.win 1).blk t).view.emb (ix2 j d)) = _
  refine congrArg (V c main_v3_1 : S16384x128.Idx → EReal) (funext fun a => Fin.ext ?_)
  match a with
  | ⟨0, _⟩ => show win1_1.index t (0 : Fin 2) * 16384 + 1 * j.val = j.val; omega
  | ⟨1, _⟩ => show win1_1.index t (1 : Fin 2) * 128 + 1 * d.val = d.val; omega

/-- The value block at any point is the value array. -/
theorem vblock_apply (c : Dev nD) (t : Fin cfg1.N) (j : Fin 16384) (d : Fin 128) :
    iblk1 (F := Ideal) V c 2 t (ix2 j d) = (V c main_v3_2 : S16384x128.Idx → EReal) (ix2 j d) := by
  obtain ⟨-, -, -, -, e0, e1, -⟩ := idx_facts t
  unfold iblk1
  rw [View.read_apply]
  show (V c main_v3_2 : S16384x128.Idx → EReal) (((cfg1.win 2).blk t).view.emb (ix2 j d)) = _
  refine congrArg (V c main_v3_2 : S16384x128.Idx → EReal) (funext fun a => Fin.ext ?_)
  match a with
  | ⟨0, _⟩ => show win1_2.index t (0 : Fin 2) * 16384 + 1 * j.val = j.val; omega
  | ⟨1, _⟩ => show win1_2.index t (1 : Fin 2) * 128 + 1 * d.val = d.val; omega

/-- The key block as a whole. -/
theorem kblock_eq (c : Dev nD) (t : Fin cfg1.N) :
    (iblk1 (F := Ideal) V c 1 t : S16384x128.Idx → EReal) = (V c main_v3_1 : S16384x128.Idx → EReal) := by
  funext i
  rw [eq_ix2 i]
  exact kblock_apply V c t (i 0) (i 1)

/-- The value block as a whole. -/
theorem vblock_eq (c : Dev nD) (t : Fin cfg1.N) :
    (iblk1 (F := Ideal) V c 2 t : S16384x128.Idx → EReal) = (V c main_v3_2 : S16384x128.Idx → EReal) := by
  funext i
  rw [eq_ix2 i]
  exact vblock_apply V c t (i 0) (i 1)

/-! ## The output blocks tile the result array -/

/-- What point `t` writes back is block `t` of `G`, when `G`'s rows `2048·t + p` are what the point leaves in
    row `p` of the output's buffer. -/
theorem flushed_eq (c : Dev nD) (G : S16384x128.Idx → EReal)
    (h : ∀ (t : Fin cfg1.N) (p : Fin 2048) (d : Fin 128), outsAt1 (F := Ideal) V c t (ix2 p d) = G (ix2 (row t p) d))
    (t : Fin cfg1.N) :
    (dat1 (F := Ideal) V c).flushed 3 t = ((cfg1.win 3).blk t).view.read (Elt Ideal) G := by
  show (cfg1.win 3).cut (grid1.coords t) ((dat1 (F := Ideal) V c).after 3 t) = _
  rw [after1_3]
  obtain ⟨-, -, -, -, -, -, e0, e1⟩ := idx_facts t
  funext j
  have hj0 : (j 0).val < 2048 := (j 0).isLt
  have hj1 : (j 1).val < 128 := (j 1).isLt
  rw [View.read_apply]
  show outsAt1 (F := Ideal) V c t ((cfg1.win 3).xinj (grid1.coords t) j) = G (((cfg1.win 3).blk t).view.emb j)
  refine Eq.trans (b := outsAt1 (F := Ideal) V c t (ix2 (⟨(j 0).val, hj0⟩ : Fin 2048) (⟨(j 1).val, hj1⟩ : Fin 128))) ?_
    ((h t _ _).trans (congrArg G ?_))
  · exact congrArg (outsAt1 (F := Ideal) V c t) (funext fun a => Fin.ext (by match a with | ⟨0, _⟩ => rfl | ⟨1, _⟩ => rfl))
  · funext a
    apply Fin.ext
    match a with
    | ⟨0, _⟩ => show 2048 * t.val + (j 0).val = win1_3.index t (0 : Fin 2) * 2048 + 1 * (j 0).val; omega
    | ⟨1, _⟩ => show (j 1).val = win1_3.index t (1 : Fin 2) * 128 + 1 * (j 1).val; omega

/-- An index of the result array is in point `t`'s block iff each coordinate is in the block's range on its axis. -/
theorem mem_blk (t : Fin cfg1.N) (i : S16384x128.Idx) :
    i ∈ ((cfg1.win 3).blk t).view.set ↔ ∀ a : Fin 2, win1_3.index t a * S2048x128.size a ≤ (i a).val
      ∧ (i a).val < win1_3.index t a * S2048x128.size a + S2048x128.size a := by
  show i ∈ ((View.whole main_v4).slice (win1_3.rect t)).set ↔ _
  rw [View.set_slice_whole, Rect.mem_set_unit]
  exact Iff.rfl

/-- Every index of the result array is in some point's block: row `r` is in the block of point `r / 2048`. -/
theorem cover (i : S16384x128.Idx) :
    ∃ t : Fin cfg1.N, (cfg1.win 3).flush t = true ∧ i ∈ ((cfg1.win 3).blk t).view.set := by
  have hi0 : (i 0).val < 16384 := (i 0).isLt
  have hi1 : (i 1).val < 128 := (i 1).isLt
  obtain ⟨t, ht⟩ : ∃ t : Fin cfg1.N, t.val = (i 0).val / 2048 := ⟨⟨(i 0).val / 2048, by rw [cfg1_N]; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 128 ≤ (i 1).val ∧ (i 1).val < win1_3.index t (1 : Fin 2) * 128 + 128
    omega

/-- The result array after the eight write-backs is `G`. -/
theorem arrAt_of_blocks (c : Dev nD) (G : S16384x128.Idx → EReal)
    (h : ∀ (t : Fin cfg1.N) (p : Fin 2048) (d : Fin 128), outsAt1 (F := Ideal) V c t (ix2 p d) = G (ix2 (row t p) d)) :
    ((dat1 (F := Ideal) V c).arrAt 3 cfg1.N : S16384x128.Idx → EReal) = G :=
  (dat1 (F := Ideal) V c).arrAt_eq_of_cover 3 G (fun t _ => flushed_eq V c G h t) cover

end Cert.KernelIdeal.Region1

end
-- ==== Proof.Spec.lean ====
/-
  The mathematics both programs compute, over the extended reals.

  From an input matrix `x` (16384 × 256), three weight matrices (256 × 128) and three bias vectors (128):
  three affine projections `x · W + b` (queries, keys, values, each 16384 × 128); the score of a query row `i`
  against a key row `j` is their inner product; a row of scores is turned into weights by the softmax taken against
  the row's maximum (exponentials of the differences, divided by their sum); the result row is the weighted sum of
  the value rows. `twoPass` is that function, every division inside the sum.
-/
import Idealize.ShloMosaic.PureOps.Ideal
import Idealize.ShloMosaic.Lib.ValueIdx

noncomputable section

namespace Cert.AttnSpec

open Idealize.ShloMosaic Idealize.ShloMosaic.ValueIdx
open scoped BigOperators

abbrev SX : Shape := ⟨2, ![16384, 256]⟩
abbrev SW : Shape := ⟨2, ![256, 128]⟩
abbrev SB : Shape := ⟨1, ![128]⟩
abbrev SQ : Shape := ⟨2, ![16384, 128]⟩

/-- Entry `(i, c)` of the affine projection `x · W + b`. -/
def projAt (x : SX.Idx → EReal) (W : SW.Idx → EReal) (b : SB.Idx → EReal) (i : Fin 16384) (c : Fin 128) : EReal :=
  (∑ k : Fin 256, x (ix2 i k) * W (ix2 k c)) + b (ix1 c)

/-- The affine projection `x · W + b` as an array. -/
def proj (x : SX.Idx → EReal) (W : SW.Idx → EReal) (b : SB.Idx → EReal) : SQ.Idx → EReal :=
  fun j => projAt x W b (j 0) (j 1)

/-- The score of query row `i` against key row `j`: the inner product of the two rows. -/
def score (q k : SQ.Idx → EReal) (i j : Fin 16384) : EReal := ∑ c : Fin 128, q (ix2 i c) * k (ix2 j c)

/-- The maximum of row `i`'s scores. -/
def rowMax (q k : SQ.Idx → EReal) (i : Fin 16384) : EReal := Finset.univ.sup fun j : Fin 16384 => score q k i j

/-- The softmax denominator of row `i`: the sum of the exponentials of its scores against the row maximum. -/
def rowSum (q k : SQ.Idx → EReal) (i : Fin 16384) : EReal :=
  ∑ j : Fin 16384, Ideal.exp (score q k i j - rowMax q k i)

/-- Entry `(i, d)` of the attention output: the softmax weights of row `i` applied to column `d` of the values. -/
def twoPassAt (q k v : SQ.Idx → EReal) (i : Fin 16384) (d : Fin 128) : EReal :=
  ∑ j : Fin 16384, Ideal.div (Ideal.exp (score q k i j - rowMax q k i)) (rowSum q k i) * v (ix2 j d)

/-- The attention output as an array. -/
def twoPass (q k v : SQ.Idx → EReal) : SQ.Idx → EReal := fun j => twoPassAt q k v (j 0) (j 1)

theorem proj_apply (x : SX.Idx → EReal) (W : SW.Idx → EReal) (b : SB.Idx → EReal) (i : Fin 16384) (c : Fin 128) :
    proj x W b (ix2 i c) = projAt x W b i c := rfl

theorem twoPass_apply (q k v : SQ.Idx → EReal) (i : Fin 16384) (d : Fin 128) :
    twoPass q k v (ix2 i d) = twoPassAt q k v i d := rfl

end Cert.AttnSpec

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.Region0.lean ====
/-
  The first kernel call's three outputs as arrays.

  Each grid point `t` (of four) takes rows `4096·t … 4096·t + 4095` of the input matrix, multiplies that block by a
  whole 256 × 128 weight matrix from the zero accumulator, adds a bias held as one row `[1, 128]` spread over the rows,
  and writes the block back at the same rows of a 16384 × 128 output. The narrowing conversions on the way are the
  identity on the extended reals. So each output array is the affine projection `x · W + b` of the specification,
  the bias row being the host's reshape `[128] → [1, 128]` of the bias vector.

  The layout: the block computation at an entry (`affineBlock_apply`, `pay_apply`); each window's block as rows of
  its array (`idx0` … `idx9`, `blockX_apply`, `blockW1_eq` … `blockW6_eq`); what a point writes back is its block of one whole-array
  function (`projRow`, `point_eq`, `flushedQ_eq`, `flushedK_eq`, `flushedV_eq`); the four blocks cover the rows (`coverQ`, `coverK`, `coverV`, then `arrQ`, `arrK`, `arrV`); the region-entry contents
  (`entry_arg0` …, `entry_v0` …, `projRow_reshape`); the three results (`q_eq`, `k_eq`, `v_eq`).
-/
import proofs.«164752_j45981919871429_2_alg».proof.Proof.Gen.KernelIdeal.Frame
import proofs.«164752_j45981919871429_2_alg».proof.Proof.Spec
import proofs.«164752_j45981919871429_2_alg».proof.Proof.LibPlainDot
import Idealize.ShloMosaic.Lib.Pipeline.Value
import Idealize.ShloMosaic.Lib.ValueLayout
import Idealize.ShloMosaic.Lib.Tactic

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The block computation at an entry -/

/-- A block `A` (`M × K`) times a matrix `W` (`K × C`) from the zero accumulator, plus a bias row `[1, C]` spread
    over the `M` rows, read at `(p, c)`, is `∑ₖ A (p, k) · W (k, c) + b (0, c)` on the extended reals. -/
theorem affineBlock_apply {M K C : Nat} {φ₁ φ₂ : FTy} (d : DotDims ⟨2, ![M, K]⟩ ⟨2, ![K, C]⟩ ⟨2, ![M, C]⟩)
    (hd : d = DotDims.plain M K C) (prec : Option ContractPrecision)
    (A : FVec Ideal ⟨2, ![M, K]⟩ φ₁) (W : FVec Ideal ⟨2, ![K, C]⟩ φ₂) (b : FVec Ideal ⟨2, ![1, C]⟩ .f32)
    (hb : (⟨2, ![1, C]⟩ : Shape).ShapeCasts ⟨2, ![1, C]⟩)
    (hbb : (⟨2, ![1, C]⟩ : Shape).Broadcasts ⟨2, ![M, C]⟩) (p : Fin M) (c : Fin C) :
    addf (matmul d prec A W (constant ⟨2, ![M, C]⟩ .f32 0x00000000#32))
        (broadcastTo ⟨2, ![M, C]⟩ (shapeCast ⟨2, ![1, C]⟩ b hb) hbb) (ix2 p c)
      = (∑ k : Fin K, A (ix2 p k) * W (ix2 k c)) + b (ix2 (0 : Fin 1) c) := by
  subst hd
  rw [addf_apply, shapeCast_self, broadcastTo_1b_ab_apply]
  exact congrArg (· + b (ix2 (0 : Fin 1) c)) (Cert.Lib.PlainDot.matmul_plain_zero_apply prec A W p c)

/-- The stored block of the first output at `(p, q)`: the narrowings are the identity, the rest is `affineBlock_apply`. -/
theorem pay_apply (x : Vec Ideal S4096x256 .f32) (W : Vec Ideal S256x128 .f32) (b : Vec Ideal S1x128 .f32)
    (p : Fin 4096) (q : Fin 128) :
    k0_pay2 (F := Ideal) x W b (ix2 p q) = (∑ k : Fin 256, x (ix2 p k) * W (ix2 k q)) + b (ix2 (0 : Fin 1) q) :=
  affineBlock_apply dot_S4096x256_S256x128_S4096x128_1_0_0_1_n_n rfl none x W b
    Facts₀.shapeCasts_S1x128_S1x128 Facts₀.broadcasts_S1x128_S4096x128 p q

/-- The second and third outputs' stored blocks are the same function of (block, weights, bias row). -/
theorem pay3_eq (x : Vec Ideal S4096x256 .f32) (W : Vec Ideal S256x128 .f32) (b : Vec Ideal S1x128 .f32) :
    k0_pay3 (F := Ideal) x W b = k0_pay2 x W b := rfl
theorem pay4_eq (x : Vec Ideal S4096x256 .f32) (W : Vec Ideal S256x128 .f32) (b : Vec Ideal S1x128 .f32) :
    k0_pay4 (F := Ideal) x W b = k0_pay2 x W b := rfl

/-! ## The windows' blocks as parts of their arrays -/

theorem hz : (![0, 0] : Fin 2 → Nat) = fun _ => 0 := funext fun a => by fin_cases a <;> rfl

/-- The printed index maps over the four grid points: the input matrix's block and the three outputs' blocks sit at
    block row `t`; the weights and the bias rows are whole, at block (0, 0). -/
theorem idx0 : ∀ t : Fin cfg0.N, win0_0.index t (0 : Fin 2) = t.val ∧ win0_0.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

section Entry
variable (V : (c : Dev nD) → (b : Ref sig .tc) → Buf (Elt Ideal) ((c : Thread nD τ).loc b))

/-- The input matrix's block at point `t`, at `(p, k)`, is the matrix at row `4096·t + p`. -/
theorem blockX_apply (c : Dev nD) (t : Fin cfg0.N) (p : Fin 4096) (k : Fin 256) (r : Fin 16384)
    (hr : r.val = 4096 * t.val + p.val) :
    (iblk0 V c 0 t : Vec Ideal S4096x256 .f32) (ix2 p k) = (V c main_arg0 : S16384x256.Idx → EReal) (ix2 r k) := by
  obtain ⟨e0, e1⟩ := idx0 t
  unfold iblk0
  rw [View.read_apply]
  show V c main_arg0 _ = V c main_arg0 _
  refine congrArg (V c main_arg0 : S16384x256.Idx → EReal) (funext fun a => Fin.ext ?_)
  match a with
  | ⟨0, _⟩ => show win0_0.index t (0 : Fin 2) * 4096 + 1 * p.val = r.val; omega
  | ⟨1, _⟩ => show win0_0.index t (1 : Fin 2) * 256 + 1 * k.val = k.val; omega

/-- Window 1's block at every point is its whole weight matrix. -/
theorem blockW1_eq (c : Dev nD) (t : Fin cfg0.N) :
    (iblk0 V c 1 t : Vec Ideal S256x128 .f32) = (V c main_arg1 : S256x128.Idx → EReal) := by
  obtain ⟨e0, e1⟩ := idx1 t
  funext y
  unfold iblk0
  rw [View.read_apply]
  show V c main_arg1 _ = V c main_arg1 y
  refine congrArg (V c main_arg1 : S256x128.Idx → EReal) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- Window 3's block at every point is its whole weight matrix. -/
theorem blockW3_eq (c : Dev nD) (t : Fin cfg0.N) :
    (iblk0 V c 3 t : Vec Ideal S256x128 .f32) = (V c main_arg3 : S256x128.Idx → EReal) := by
  obtain ⟨e0, e1⟩ := idx3 t
  funext y
  unfold iblk0
  rw [View.read_apply]
  show V c main_arg3 _ = V c main_arg3 y
  refine congrArg (V c main_arg3 : S256x128.Idx → EReal) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

/-- Window 5's block at every point is its whole weight matrix. -/
theorem blockW5_eq (c : Dev nD) (t : Fin cfg0.N) :
    (iblk0 V c 5 t : Vec Ideal S256x128 .f32) = (V c main_arg5 : S256x128.Idx → EReal) := by
  obtain ⟨e0, e1⟩ := idx5 t
  funext y
  unfold iblk0
  rw [View.read_apply]
  show V c main_arg5 _ = V c main_arg5 y
  refine congrArg (V c main_arg5 : S256x128.Idx → EReal) (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- Window 2's block at every point is its whole bias row. -/
theorem blockW2_eq (c : Dev nD) (t : Fin cfg0.N) :
    (iblk0 V c 2 t : Vec Ideal S1x128 .f32) = (V c main_v0 : S1x128.Idx → EReal) := by
  obtain ⟨e0, e1⟩ := idx2 t
  funext y
  unfold iblk0
  rw [View.read_apply]
  show V c main_v0 _ = V c main_v0 y
  refine congrArg (V c main_v0 : S1x128.Idx → EReal) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 4's block at every point is its whole bias row. -/
theorem blockW4_eq (c : Dev nD) (t : Fin cfg0.N) :
    (iblk0 V c 4 t : Vec Ideal S1x128 .f32) = (V c main_v1 : S1x128.Idx → EReal) := by
  obtain ⟨e0, e1⟩ := idx4 t
  funext y
  unfold iblk0
  rw [View.read_apply]
  show V c main_v1 _ = V c main_v1 y
  refine congrArg (V c main_v1 : S1x128.Idx → EReal) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 6's block at every point is its whole bias row. -/
theorem blockW6_eq (c : Dev nD) (t : Fin cfg0.N) :
    (iblk0 V c 6 t : Vec Ideal S1x128 .f32) = (V c main_v2 : S1x128.Idx → EReal) := by
  obtain ⟨e0, e1⟩ := idx6 t
  funext y
  unfold iblk0
  rw [View.read_apply]
  show V c main_v2 _ = V c main_v2 y
  refine congrArg (V c main_v2 : S1x128.Idx → EReal) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## One whole-array function, and what a point writes back -/

/-- `x · W + b` with the bias held as one row `[1, 128]`. -/
def projRow (X : S16384x256.Idx → EReal) (Wt : S256x128.Idx → EReal) (B : S1x128.Idx → EReal) :
    S16384x128.Idx → EReal :=
  fun i => (∑ k : Fin 256, X (ix2 (i 0) k) * Wt (ix2 k (i 1))) + B (ix2 (0 : Fin 1) (i 1))

theorem projRow_apply (X : S16384x256.Idx → EReal) (Wt : S256x128.Idx → EReal) (B : S1x128.Idx → EReal)
    (r : Fin 16384) (q : Fin 128) :
    projRow X Wt B (ix2 r q) = (∑ k : Fin 256, X (ix2 r k) * Wt (ix2 k q)) + B (ix2 (0 : Fin 1) q) := rfl

/-- A stored block at `(p, q)` is `projRow` at `(r, q)` as soon as the loaded block's row `p` is the matrix's row `r`
    and the other two loads are the whole weight matrix and the whole bias row. -/
theorem point_eq (X : S16384x256.Idx → EReal) (Wt : S256x128.Idx → EReal) (B : S1x128.Idx → EReal)
    (x0 : Vec Ideal S4096x256 .f32) (x1 : Vec Ideal S256x128 .f32) (x2 : Vec Ideal S1x128 .f32)
    (p : Fin 4096) (q : Fin 128) (r : Fin 16384)
    (h0 : ∀ k : Fin 256, x0 (ix2 p k) = X (ix2 r k)) (h1 : x1 = Wt) (h2 : x2 = B) :
    k0_pay2 (F := Ideal) x0 x1 x2 (ix2 p q) = projRow X Wt B (ix2 r q) := by
  subst h1 h2
  rw [pay_apply, projRow_apply]
  simp only [h0]

/-! ### Output window 7 -/

/-- WHAT POINT `t` WRITES BACK to window 7's array is block `t` of `projRow` of the region-entry arrays. -/
theorem flushedQ_eq (c : Dev nD) (t : Fin cfg0.N) :
    (dat0 V c).flushed 7 t = ((cfg0.win 7).blk t).view.read (Elt Ideal)
      (projRow (V c main_arg0) (V c main_arg1) (V c main_v0)) := by
  show (cfg0.win 7).cut (grid0.coords t) ((dat0 V c).after 7 t) = _
  rw [after0_7]
  unfold out0_7
  rw [View.canon_unit_zero hz]
  simp only [View.ld_unit_zero (S := S4096x256) hz, View.ld_unit_zero (S := S256x128) hz,
    View.ld_unit_zero (S := S1x128) hz]
  obtain ⟨e0, e1⟩ := idx7 t
  have hN : t.val < 4 := t.isLt
  funext j
  obtain ⟨p, q, rfl⟩ : ∃ (p : Fin 4096) (q : Fin 128), j = ix2 p q := ⟨j 0, j 1, eq_ix2 j⟩
  have hp : p.val < 4096 := p.isLt
  have hr : 4096 * t.val + p.val < 16384 := by omega
  have hi : ((cfg0.win 7).blk t).view.emb (ix2 p q) = ix2 (⟨4096 * t.val + p.val, hr⟩ : Fin 16384) q := by
    funext a; apply Fin.ext
    match a with
    | ⟨0, _⟩ => show win0_7.index t (0 : Fin 2) * 4096 + 1 * p.val = 4096 * t.val + p.val; omega
    | ⟨1, _⟩ => show win0_7.index t (1 : Fin 2) * 128 + 1 * q.val = q.val; omega
  show k0_pay2 (iblk0 V c 0 t) (iblk0 V c 1 t) (iblk0 V c 2 t) (ix2 p q)
    = projRow (V c main_arg0) (V c main_arg1) (V c main_v0) (((cfg0.win 7).blk t).view.emb (ix2 p q))
  rw [hi]
  exact point_eq (V c main_arg0) (V c main_arg1) (V c main_v0) (iblk0 V c 0 t) (iblk0 V c 1 t) (iblk0 V c 2 t)
    p q ⟨4096 * t.val + p.val, hr⟩ (fun k => blockX_apply V c t p k ⟨4096 * t.val + p.val, hr⟩ rfl)
    (blockW1_eq V c t) (blockW2_eq V c t)

/-- An index of the array is in point `t`'s block iff each coordinate is in the block's range on its axis. -/
theorem mem_blkQ (t : Fin cfg0.N) (i : S16384x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v3_0).slice (win0_7.rect t)).set ↔ _
  rw [View.set_slice_whole, Rect.mem_set_unit]
  exact Iff.rfl

/-- Row `r` is in the block of point `r / 4096`: the four blocks cover the array. -/
theorem coverQ (i : S16384x128.Idx) :
    ∃ t : Fin cfg0.N, (cfg0.win 7).flush t = true ∧ i ∈ ((cfg0.win 7).blk t).view.set := by
  have hi0 : (i 0).val < 16384 := (i 0).isLt
  have hi1 : (i 1).val < 128 := (i 1).isLt
  have ht : (i 0).val / 4096 < 4 := by omega
  obtain ⟨t, hv⟩ : ∃ t : Fin cfg0.N, t.val = (i 0).val / 4096 := ⟨⟨(i 0).val / 4096, ht⟩, rfl⟩
  obtain ⟨e0, e1⟩ := idx7 t
  refine ⟨t, flush0_7 t, ?_⟩
  rw [mem_blkQ]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 128 ≤ (i 1).val ∧ (i 1).val < win0_7.index t (1 : Fin 2) * 128 + 128; omega

/-- Window 7's array after the region is `projRow` of the region-entry arrays. -/
theorem arrQ (c : Dev nD) :
    (dat0 V c).arrAt 7 cfg0.N = projRow (V c main_arg0) (V c main_arg1) (V c main_v0) :=
  (dat0 V c).arrAt_eq_of_cover 7 (projRow (V c main_arg0) (V c main_arg1) (V c main_v0))
    (fun t _ => flushedQ_eq V c t) coverQ

/-! ### Output window 8 -/

/-- WHAT POINT `t` WRITES BACK to window 8's array is block `t` of `projRow` of the region-entry arrays. -/
theorem flushedK_eq (c : Dev nD) (t : Fin cfg0.N) :
    (dat0 V c).flushed 8 t = ((cfg0.win 8).blk t).view.read (Elt Ideal)
      (projRow (V c main_arg0) (V c main_arg3) (V c main_v1)) := by
  show (cfg0.win 8).cut (grid0.coords t) ((dat0 V c).after 8 t) = _
  rw [after0_8]
  unfold out0_8
  rw [View.canon_unit_zero hz]
  simp only [View.ld_unit_zero (S := S4096x256) hz, View.ld_unit_zero (S := S256x128) hz,
    View.ld_unit_zero (S := S1x128) hz]
  obtain ⟨e0, e1⟩ := idx8 t
  have hN : t.val < 4 := t.isLt
  funext j
  obtain ⟨p, q, rfl⟩ : ∃ (p : Fin 4096) (q : Fin 128), j = ix2 p q := ⟨j 0, j 1, eq_ix2 j⟩
  have hp : p.val < 4096 := p.isLt
  have hr : 4096 * t.val + p.val < 16384 := by omega
  have hi : ((cfg0.win 8).blk t).view.emb (ix2 p q) = ix2 (⟨4096 * t.val + p.val, hr⟩ : Fin 16384) q := by
    funext a; apply Fin.ext
    match a with
    | ⟨0, _⟩ => show win0_8.index t (0 : Fin 2) * 4096 + 1 * p.val = 4096 * t.val + p.val; omega
    | ⟨1, _⟩ => show win0_8.index t (1 : Fin 2) * 128 + 1 * q.val = q.val; omega
  show k0_pay3 (iblk0 V c 0 t) (iblk0 V c 3 t) (iblk0 V c 4 t) (ix2 p q)
    = projRow (V c main_arg0) (V c main_arg3) (V c main_v1) (((cfg0.win 8).blk t).view.emb (ix2 p q))
  rw [hi, pay3_eq]
  exact point_eq (V c main_arg0) (V c main_arg3) (V c main_v1) (iblk0 V c 0 t) (iblk0 V c 3 t) (iblk0 V c 4 t)
    p q ⟨4096 * t.val + p.val, hr⟩ (fun k => blockX_apply V c t p k ⟨4096 * t.val + p.val, hr⟩ rfl)
    (blockW3_eq V c t) (blockW4_eq V c t)

/-- An index of the array is in point `t`'s block iff each coordinate is in the block's range on its axis. -/
theorem mem_blkK (t : Fin cfg0.N) (i : S16384x128.Idx) :
    i ∈ ((cfg0.win 8).blk t).view.set ↔ ∀ a : Fin 2, win0_8.index t a * S4096x128.size a ≤ (i a).val
      ∧ (i a).val < win0_8.index t a * S4096x128.size a + S4096x128.size a := by
  show i ∈ ((View.whole main_v3_1).slice (win0_8.rect t)).set ↔ _
  rw [View.set_slice_whole, Rect.mem_set_unit]
  exact Iff.rfl

/-- Row `r` is in the block of point `r / 4096`: the four blocks cover the array. -/
theorem coverK (i : S16384x128.Idx) :
    ∃ t : Fin cfg0.N, (cfg0.win 8).flush t = true ∧ i ∈ ((cfg0.win 8).blk t).view.set := by
  have hi0 : (i 0).val < 16384 := (i 0).isLt
  have hi1 : (i 1).val < 128 := (i 1).isLt
  have ht : (i 0).val / 4096 < 4 := by omega
  obtain ⟨t, hv⟩ : ∃ t : Fin cfg0.N, t.val = (i 0).val / 4096 := ⟨⟨(i 0).val / 4096, ht⟩, rfl⟩
  obtain ⟨e0, e1⟩ := idx8 t
  refine ⟨t, flush0_8 t, ?_⟩
  rw [mem_blkK]
  intro a
  match a with
  | ⟨0, _⟩ => show win0_8.index t (0 : Fin 2) * 4096 ≤ (i 0).val ∧ (i 0).val < win0_8.index t (0 : Fin 2) * 4096 + 4096; omega
  | ⟨1, _⟩ => show win0_8.index t (1 : Fin 2) * 128 ≤ (i 1).val ∧ (i 1).val < win0_8.index t (1 : Fin 2) * 128 + 128; omega

/-- Window 8's array after the region is `projRow` of the region-entry arrays. -/
theorem arrK (c : Dev nD) :
    (dat0 V c).arrAt 8 cfg0.N = projRow (V c main_arg0) (V c main_arg3) (V c main_v1) :=
  (dat0 V c).arrAt_eq_of_cover 8 (projRow (V c main_arg0) (V c main_arg3) (V c main_v1))
    (fun t _ => flushedK_eq V c t) coverK

/-! ### Output window 9 -/

/-- WHAT POINT `t` WRITES BACK to window 9's array is block `t` of `projRow` of the region-entry arrays. -/
theorem flushedV_eq (c : Dev nD) (t : Fin cfg0.N) :
    (dat0 V c).flushed 9 t = ((cfg0.win 9).blk t).view.read (Elt Ideal)
      (projRow (V c main_arg0) (V c main_arg5) (V c main_v2)) := by
  show (cfg0.win 9).cut (grid0.coords t) ((dat0 V c).after 9 t) = _
  rw [after0_9]
  unfold out0_9
  rw [View.canon_unit_zero hz]
  simp only [View.ld_unit_zero (S := S4096x256) hz, View.ld_unit_zero (S := S256x128) hz,
    View.ld_unit_zero (S := S1x128) hz]
  obtain ⟨e0, e1⟩ := idx9 t
  have hN : t.val < 4 := t.isLt
  funext j
  obtain ⟨p, q, rfl⟩ : ∃ (p : Fin 4096) (q : Fin 128), j = ix2 p q := ⟨j 0, j 1, eq_ix2 j⟩
  have hp : p.val < 4096 := p.isLt
  have hr : 4096 * t.val + p.val < 16384 := by omega
  have hi : ((cfg0.win 9).blk t).view.emb (ix2 p q) = ix2 (⟨4096 * t.val + p.val, hr⟩ : Fin 16384) q := by
    funext a; apply Fin.ext
    match a with
    | ⟨0, _⟩ => show win0_9.index t (0 : Fin 2) * 4096 + 1 * p.val = 4096 * t.val + p.val; omega
    | ⟨1, _⟩ => show win0_9.index t (1 : Fin 2) * 128 + 1 * q.val = q.val; omega
  show k0_pay4 (iblk0 V c 0 t) (iblk0 V c 5 t) (iblk0 V c 6 t) (ix2 p q)
    = projRow (V c main_arg0) (V c main_arg5) (V c main_v2) (((cfg0.win 9).blk t).view.emb (ix2 p q))
  rw [hi, pay4_eq]
  exact point_eq (V c main_arg0) (V c main_arg5) (V c main_v2) (iblk0 V c 0 t) (iblk0 V c 5 t) (iblk0 V c 6 t)
    p q ⟨4096 * t.val + p.val, hr⟩ (fun k => blockX_apply V c t p k ⟨4096 * t.val + p.val, hr⟩ rfl)
    (blockW5_eq V c t) (blockW6_eq V c t)

/-- An index of the array is in point `t`'s block iff each coordinate is in the block's range on its axis. -/
theorem mem_blkV (t : Fin cfg0.N) (i : S16384x128.Idx) :
    i ∈ ((cfg0.win 9).blk t).view.set ↔ ∀ a : Fin 2, win0_9.index t a * S4096x128.size a ≤ (i a).val
      ∧ (i a).val < win0_9.index t a * S4096x128.size a + S4096x128.size a := by
  show i ∈ ((View.whole main_v3_2).slice (win0_9.rect t)).set ↔ _
  rw [View.set_slice_whole, Rect.mem_set_unit]
  exact Iff.rfl

/-- Row `r` is in the block of point `r / 4096`: the four blocks cover the array. -/
theorem coverV (i : S16384x128.Idx) :
    ∃ t : Fin cfg0.N, (cfg0.win 9).flush t = true ∧ i ∈ ((cfg0.win 9).blk t).view.set := by
  have hi0 : (i 0).val < 16384 := (i 0).isLt
  have hi1 : (i 1).val < 128 := (i 1).isLt
  have ht : (i 0).val / 4096 < 4 := by omega
  obtain ⟨t, hv⟩ : ∃ t : Fin cfg0.N, t.val = (i 0).val / 4096 := ⟨⟨(i 0).val / 4096, ht⟩, rfl⟩
  obtain ⟨e0, e1⟩ := idx9 t
  refine ⟨t, flush0_9 t, ?_⟩
  rw [mem_blkV]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 128 ≤ (i 1).val ∧ (i 1).val < win0_9.index t (1 : Fin 2) * 128 + 128; omega

/-- Window 9's array after the region is `projRow` of the region-entry arrays. -/
theorem arrV (c : Dev nD) :
    (dat0 V c).arrAt 9 cfg0.N = projRow (V c main_arg0) (V c main_arg5) (V c main_v2) :=
  (dat0 V c).arrAt_eq_of_cover 9 (projRow (V c main_arg0) (V c main_arg5) (V c main_v2))
    (fun t _ => flushedV_eq V c t) coverV

end Entry

/-! ## The region-entry contents, and the three results -/

/-- With the bias row the reshape `[128] → [1, 128]` of a bias vector, `projRow` is the specification's projection. -/
theorem projRow_reshape (X : S16384x256.Idx → EReal) (Wt : S256x128.Idx → EReal) (b : S128.Idx → EReal)
    (h : S128.ShapeCasts S1x128) :
    projRow X Wt (shapeCast S1x128 b h) = Cert.AttnSpec.proj X Wt b := by
  funext i
  obtain ⟨r, q, rfl⟩ : ∃ (r : Fin 16384) (q : Fin 128), i = ix2 r q := ⟨i 0, i 1, eq_ix2 i⟩
  rw [projRow_apply, Cert.AttnSpec.proj_apply]
  unfold Cert.AttnSpec.projAt
  refine congrArg ((∑ k : Fin 256, X (ix2 r k) * Wt (ix2 k q)) + ·) ?_
  refine shapeCast_apply b h (ix2 (0 : Fin 1) q) (ix1 q) ?_
  rw [Shape.rowMajor_val_one, Shape.rowMajor_val_two]
  show q.val = 0 * 128 + q.val
  omega

section Run
variable (m : (ℓ : Loc nD τ sig) → Buf (Elt Ideal) ℓ) (ρ : Dev nD → PrngReg)

/-! No host operation writes an argument: at the region's entry each is as launched. The three bias rows are the
    host's reshapes of the bias vectors. -/

theorem entry_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem entry_arg1 (c : Dev nD) : V1 m ρ c main_arg1 = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

theorem entry_arg3 (c : Dev nD) : V1 m ρ c main_arg3 = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl

theorem entry_arg5 (c : Dev nD) : V1 m ρ c main_arg5 = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

theorem entry_v0 (c : Dev nD) : (V1 m ρ c main_v0 : S1x128.Idx → EReal)
    = shapeCast S1x128 (m ((c : Thread nD τ).loc main_arg2) : S128.Idx → EReal) Facts₀.shapeCasts_S128_S1x128 := by
  dsimp only [Gen.V1, Gen.W1, Gen.hostOps0]; after_results; rfl

theorem entry_v1 (c : Dev nD) : (V1 m ρ c main_v1 : S1x128.Idx → EReal)
    = shapeCast S1x128 (m ((c : Thread nD τ).loc main_arg4) : S128.Idx → EReal) Facts₀.shapeCasts_S128_S1x128 := by
  dsimp only [Gen.V1, Gen.W1, Gen.hostOps0]; after_results; rfl

theorem entry_v2 (c : Dev nD) : (V1 m ρ c main_v2 : S1x128.Idx → EReal)
    = shapeCast S1x128 (m ((c : Thread nD τ).loc main_arg6) : S128.Idx → EReal) Facts₀.shapeCasts_S128_S1x128 := by
  dsimp only [Gen.V1, Gen.W1, Gen.hostOps0]; after_results; rfl

/-- The first output: the query projection. -/
theorem q_eq (c : Dev nD) : (Gen.V2 (F := Ideal) m ρ c main_v3_0 : S16384x128.Idx → EReal)
    = Cert.AttnSpec.proj (m ((c.tc : Thread nD τ).loc main_arg0)) (m ((c.tc : Thread nD τ).loc main_arg1))
        (m ((c.tc : Thread nD τ).loc main_arg2)) := by
  refine (W2_arr m ρ c 7).trans ?_
  rw [arrQ (V1 m ρ) c, entry_arg0, entry_arg1, entry_v0]
  exact projRow_reshape _ _ _ _

/-- The second output: the key projection. -/
theorem k_eq (c : Dev nD) : (Gen.V2 (F := Ideal) m ρ c main_v3_1 : S16384x128.Idx → EReal)
    = Cert.AttnSpec.proj (m ((c.tc : Thread nD τ).loc main_arg0)) (m ((c.tc : Thread nD τ).loc main_arg3))
        (m ((c.tc : Thread nD τ).loc main_arg4)) := by
  refine (W2_arr m ρ c 8).trans ?_
  rw [arrK (V1 m ρ) c, entry_arg0, entry_arg3, entry_v1]
  exact projRow_reshape _ _ _ _

/-- The third output: the value projection. -/
theorem v_eq (c : Dev nD) : (Gen.V2 (F := Ideal) m ρ c main_v3_2 : S16384x128.Idx → EReal)
    = Cert.AttnSpec.proj (m ((c.tc : Thread nD τ).loc main_arg0)) (m ((c.tc : Thread nD τ).loc main_arg5))
        (m ((c.tc : Thread nD τ).loc main_arg6)) := by
  refine (W2_arr m ρ c 9).trans ?_
  rw [arrV (V1 m ρ) c, entry_arg0, entry_arg5, entry_v2]
  exact projRow_reshape _ _ _ _

end Run

end Cert.KernelIdeal.Region0

end
-- ==== Proof.LibWholeBuffer.lean ====
/-
  A buffer that is loaded and stored WHOLE.

  A body that loads a whole staging buffer reads its contents, and one that stores a whole buffer leaves the stored
  vector, whatever was stored before: the rectangle of such an access is the unit rectangle at zero offsets of the
  buffer's own sizes, which is the whole index set. Three equations say so, for a load through a whole memref held at
  the raw contents that read `X`, for the contents after a list of stores whose LAST is whole, and for the offsets'
  spelling as a literal vector of zeros.
-/
import Idealize.ShloMosaic.Lib.Pipeline.FrameBody
import Idealize.ShloMosaic.Lib.Pipeline.Value
import Idealize.ShloMosaic.Lib.WholeRead

noncomputable section

namespace WholeBuffer

open Idealize.ShloMosaic

variable {sig : RefSig} {Val : EltTy → Type} {κ : Kind} {sp : Space} {S : Shape} {e : EltTy}

/-- Two literal zero offsets are the zero offsets. -/
theorem off2_zero : (![0, 0] : Fin 2 → ℕ) = fun _ => 0 := by
  funext a; fin_cases a <;> rfl

/-- One literal zero offset is the zero offsets. -/
theorem off1_zero : (![0] : Fin 1 → ℕ) = fun _ => 0 := by
  funext a; fin_cases a; rfl

/-- A load of the whole shape through a whole memref held at the raw contents that read `X` reads `X`. -/
theorem readAt_unit_zero_unread {m : Memref sig κ sp S e} (h : m.IsWhole) (X : S.Idx → Val e)
    {off : Fin S.rank → ℕ} (hoff : off = fun _ => 0) (inb : ∀ a, off a + S.size a ≤ S.size a) :
    View.readAt Val m.view (Rect.unit off S.size inb).toLoadRect (h.unread X) = X := by
  funext x
  exact (h.readAt_unread X _ x).trans (congrFun (View.ld_unit_zero hoff inb X) x)

/-- After stores the last of which stores the whole shape, the buffer reads as that store's vector. -/
theorem read_writes_cons_unit_zero [∀ e, Nonempty (Val e)] (v : View sig κ sp S e) (f : v.ty.Contents Val)
    {off : Fin S.rank → ℕ} (hoff : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hoff inb y⟩)]
  exact View.canon_cons_unit_zero hoff inb w L

end WholeBuffer

end
-- ==== Proof.AttnLoop.lean ====
/-
  The attention kernel's loop over key tiles, as a recursion on vectors.

  The body keeps three accumulators in scratch buffers — the running row maximum `m`, the running denominator `l`
  and the running weighted sum `acc` — which it initialises, updates once per key tile from the tile's keys and values
  and the accumulators' previous contents, and finally divides. Each of these stores writes a whole buffer, so what a
  buffer reads as after any number of tiles is the payload of the last store into it. Hence the buffers' contents
  after `k` tiles are the `k`-th iterate of a pure step function on the three vectors (`st`), and the block the
  kernel writes back is `acc / l` of the last iterate.
-/
import proofs.«164752_j45981919871429_2_alg».proof.Proof.Gen.KernelIdeal.Frame
import proofs.«164752_j45981919871429_2_alg».proof.Proof.LibWholeBuffer

set_option maxRecDepth 16384

noncomputable section

namespace Cert.KernelIdeal.AttnLoop

open Cert.KernelIdeal Cert.KernelIdeal.Gen
open Idealize.ShloMosaic Idealize.ShloMosaic.TcCoe Idealize.ShloMosaic.Tactic
open Idealize.SL Idealize.SL.Sem

variable {F : FTy → Type} [FloatOps F]

/-- The rows `1024·k, …, 1024·k + 1023` of a key or value array: the tile that trip `k` loads. -/
abbrev tile (X : Vec F S16384x128 .bf16) (k : Fin k1_t1_loop.trips) : Vec F S1024x128 .bf16 :=
  View.ld X (Rect.unit (s := S16384x128) (k1_off1 k) S1024x128.size (k1_off1_inb k))

/-- The three accumulators (maximum, denominator, weighted sum) after `k` key tiles, from the query block `x0`
    and the key and value arrays `x1`, `x2`. -/
def st (x0 : Vec F S2048x128 .bf16) (x1 x2 : Vec F S16384x128 .bf16) :
    ℕ → FVec F S2048x1 .f32 × FVec F S2048x1 .f32 × FVec F S2048x128 .f32
  | 0 => (k1_pay1, k1_pay2, k1_pay3)
  | k + 1 =>
    if h : k < k1_t1_loop.trips then
      (k1_pay5 (k1_pay8 (k1_pay4 x0) (tile x1 ⟨k, h⟩) (st x0 x1 x2 k).1),
       k1_pay11 (k1_pay4 x0) (tile x1 ⟨k, h⟩) (st x0 x1 x2 k).1 (st x0 x1 x2 k).2.1,
       k1_pay12 (k1_pay4 x0) (tile x1 ⟨k, h⟩) (tile x2 ⟨k, h⟩) (st x0 x1 x2 k).1 (st x0 x1 x2 k).2.2)
    else st x0 x1 x2 k

section Body

variable (c : Dev nD) (i : grid1.Coords) (arg1 : Memref sig .tc .vmem S2048x128 .bf16) (harg1 : arg1.IsWhole) (arg2 : Memref sig .tc .vmem S16384x128 .bf16) (harg2 : arg2.IsWhole) (arg3 : Memref sig .tc .vmem S16384x128 .bf16) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole)

/-- What one trip stores, spelled out: one whole-buffer store into each accumulator, its payload a function of the
    trip's key and value tiles and of what the accumulators held. -/
theorem tripL_eq (v12 : Vec F S2048x128 .bf16) (X2 : BufTy.Contents (Elt F) arg2.view.ty) (X3 : BufTy.Contents (Elt F) arg3.view.ty)
    (k : Fin k1_t1_loop.trips) (f5 : BufTy.Contents (Elt F) arg5.view.ty) (f6 : BufTy.Contents (Elt F) arg6.view.ty) (f7 : BufTy.Contents (Elt F) arg7.view.ty) :
    tripL_k1_t1 (F := F) Variants.none c none i arg1 harg1 arg2 harg2 arg3 harg3 arg4 harg4 arg5 harg5 arg6 harg6 arg7 harg7 v12 X2 X3 k f5 f6 f7
      = ([⟨(Rect.unit (s := S2048x1) ![0, 0] S2048x1.size inb_S2048x1_S2048x1_0_0), k1_pay5 (k1_pay8 (k1_pay4 v12) (View.readAt (Elt F) arg2.view (Rect.unit (s := S16384x128) (k1_off1 k) S1024x128.size (k1_off1_inb k)).toLoadRect X2) (View.readAt (Elt F) arg5.view (Rect.unit (s := S2048x1) ![0, 0] S2048x1.size inb_S2048x1_S2048x1_0_0).toLoadRect f5))⟩],
         [⟨(Rect.unit (s := S2048x1) ![0, 0] S2048x1.size inb_S2048x1_S2048x1_0_0), k1_pay11 (k1_pay4 v12) (View.readAt (Elt F) arg2.view (Rect.unit (s := S16384x128) (k1_off1 k) S1024x128.size (k1_off1_inb k)).toLoadRect X2) (View.readAt (Elt F) arg5.view (Rect.unit (s := S2048x1) ![0, 0] S2048x1.size inb_S2048x1_S2048x1_0_0).toLoadRect f5) (View.readAt (Elt F) arg6.view (Rect.unit (s := S2048x1) ![0, 0] S2048x1.size inb_S2048x1_S2048x1_0_0).toLoadRect f6)⟩],
         [⟨(Rect.unit (s := S2048x128) ![0, 0] S2048x128.size inb_S2048x128_S2048x128_0_0), k1_pay12 (k1_pay4 v12) (View.readAt (Elt F) arg2.view (Rect.unit (s := S16384x128) (k1_off1 k) S1024x128.size (k1_off1_inb k)).toLoadRect X2) (View.readAt (Elt F) arg3.view (Rect.unit (s := S16384x128) (k1_off1 k) S1024x128.size (k1_off1_inb k)).toLoadRect X3) (View.readAt (Elt F) arg5.view (Rect.unit (s := S2048x1) ![0, 0] S2048x1.size inb_S2048x1_S2048x1_0_0).toLoadRect f5) (View.readAt (Elt F) arg7.view (Rect.unit (s := S2048x128) ![0, 0] S2048x128.size inb_S2048x128_S2048x128_0_0).toLoadRect f7)⟩]) := by
  unfold tripL_k1_t1 trip_k1_t1
  dsimp only
  sl_unfold_words
  rfl

end Body

/-- A load of a whole buffer reads the buffer's contents. -/
theorem readAt_whole {S : Shape} {e : EltTy} (v : View sig .tc .vmem S e) (f : v.ty.Contents (Elt F))
    {off : Fin S.rank → ℕ} (hoff : off = fun _ => 0) (inb : ∀ a, off a + S.size a ≤ S.size a) :
    View.readAt (Elt F) v (Rect.unit off S.size inb).toLoadRect f = v.read (Elt F) f := by
  rw [View.readAt_eq_ld]; exact View.ld_unit_zero hoff inb _

section Abstract

variable (v5 v6 : View sig .tc .vmem S2048x1 .f32) (v7 : View sig .tc .vmem S2048x128 .f32)
variable (g5 : v5.ty.Contents (Elt F)) (g6 : v6.ty.Contents (Elt F)) (g7 : v7.ty.Contents (Elt F))
variable (v12 : Vec F S2048x128 .bf16) (x1 x2 : Vec F S16384x128 .bf16)
variable (P : ℕ → List (View.Piece (Elt F) S2048x1 .f32) × List (View.Piece (Elt F) S2048x1 .f32) × List (View.Piece (Elt F) S2048x128 .f32))

/-- Three buffers that start at the initial accumulators and receive, at each trip, one whole store each whose
    payload is the step function of what they read as: after `k` trips they read as the `k`-th iterate. -/
theorem inv_abs (h0 : P 0 = ([], [], []))
    (hg5 : v5.read (Elt F) g5 = k1_pay1) (hg6 : v6.read (Elt F) g6 = k1_pay2) (hg7 : v7.read (Elt F) g7 = k1_pay3)
    (hsucc : ∀ (k : ℕ) (h : k < k1_t1_loop.trips), P (k + 1) =
      ((⟨(Rect.unit (s := S2048x1) ![0, 0] S2048x1.size inb_S2048x1_S2048x1_0_0), k1_pay5 (k1_pay8 (k1_pay4 v12) (tile x1 ⟨k, h⟩) (v5.read (Elt F) (v5.writes (Elt F) g5 (P k).1)))⟩ : View.Piece (Elt F) S2048x1 .f32) :: (P k).1,
       (⟨(Rect.unit (s := S2048x1) ![0, 0] S2048x1.size inb_S2048x1_S2048x1_0_0), k1_pay11 (k1_pay4 v12) (tile x1 ⟨k, h⟩) (v5.read (Elt F) (v5.writes (Elt F) g5 (P k).1)) (v6.read (Elt F) (v6.writes (Elt F) g6 (P k).2.1))⟩ : View.Piece (Elt F) S2048x1 .f32) :: (P k).2.1,
       (⟨(Rect.unit (s := S2048x128) ![0, 0] S2048x128.size inb_S2048x128_S2048x128_0_0), k1_pay12 (k1_pay4 v12) (tile x1 ⟨k, h⟩) (tile x2 ⟨k, h⟩) (v5.read (Elt F) (v5.writes (Elt F) g5 (P k).1)) (v7.read (Elt F) (v7.writes (Elt F) g7 (P k).2.2))⟩ : View.Piece (Elt F) S2048x128 .f32) :: (P k).2.2))
    (k : ℕ) (hk : k ≤ k1_t1_loop.trips) :
    v5.read (Elt F) (v5.writes (Elt F) g5 (P k).1) = (st v12 x1 x2 k).1
    ∧ v6.read (Elt F) (v6.writes (Elt F) g6 (P k).2.1) = (st v12 x1 x2 k).2.1
    ∧ v7.read (Elt F) (v7.writes (Elt F) g7 (P k).2.2) = (st v12 x1 x2 k).2.2 := by
  induction k with
  | zero =>
    rw [h0, st.eq_1]
    exact ⟨hg5, hg6, hg7⟩
  | succ k ih =>
    have hlt : k < k1_t1_loop.trips := hk
    obtain ⟨h5, h6, h7⟩ := ih (Nat.le_of_lt hlt)
    rw [hsucc k hlt, st, dif_pos hlt, h5, h6, h7]
    exact ⟨WholeBuffer.read_writes_cons_unit_zero v5 _ WholeBuffer.off2_zero _ _ _,
      WholeBuffer.read_writes_cons_unit_zero v6 _ WholeBuffer.off2_zero _ _ _,
      WholeBuffer.read_writes_cons_unit_zero v7 _ WholeBuffer.off2_zero _ _ _⟩

end Abstract

end Cert.KernelIdeal.AttnLoop

end
-- ==== Proof.AttnOut.lean ====
/-
  The attention kernel's body at one grid point: the block it writes back is the quotient of the last iterates.

  The loop's generated invariant states each accumulator buffer as "the initial store, then the stores of the trips so
  far". Reading it with the abstract recursion of the previous module gives the buffers' contents after all sixteen
  trips, and the one store into the output block, the weighted sum divided by the denominator, reads them.
-/
import proofs.«164752_j45981919871429_2_alg».proof.Proof.AttnLoop

set_option maxRecDepth 16384

noncomputable section

namespace Cert.KernelIdeal.AttnLoop

open Cert.KernelIdeal Cert.KernelIdeal.Gen
open Idealize.ShloMosaic Idealize.ShloMosaic.TcCoe Idealize.ShloMosaic.Tactic
open Idealize.SL Idealize.SL.Sem

variable {F : FTy → Type} [FloatOps F]

section Body

variable (c : Dev nD) (i : grid1.Coords) (arg1 : Memref sig .tc .vmem S2048x128 .bf16) (harg1 : arg1.IsWhole) (arg2 : Memref sig .tc .vmem S16384x128 .bf16) (harg2 : arg2.IsWhole) (arg3 : Memref sig .tc .vmem S16384x128 .bf16) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole)

/-- The accumulators' buffers as the loop finds them: each just stored whole with its initial value. -/
abbrev G5 : BufTy.Contents (Elt F) arg5.view.ty := arg5.view.writes (Elt F) arg5.view.junk [⟨(Rect.unit (s := S2048x1) ![0, 0] S2048x1.size inb_S2048x1_S2048x1_0_0), k1_pay1⟩]
abbrev G6 : BufTy.Contents (Elt F) arg6.view.ty := arg6.view.writes (Elt F) arg6.view.junk [⟨(Rect.unit (s := S2048x1) ![0, 0] S2048x1.size inb_S2048x1_S2048x1_0_0), k1_pay2⟩]
abbrev G7 : BufTy.Contents (Elt F) arg7.view.ty := arg7.view.writes (Elt F) arg7.view.junk [⟨(Rect.unit (s := S2048x128) ![0, 0] S2048x128.size inb_S2048x128_S2048x128_0_0), k1_pay3⟩]

/-- A buffer just stored whole reads as what was stored. -/
theorem read_init {S : Shape} {e : EltTy} (v : View sig .tc .vmem S e) {off : Fin S.rank → ℕ} (hoff : off = fun _ => 0)
    (inb : ∀ a, off a + S.size a ≤ S.size a) (w : S.Idx → Elt F e) :
    v.read (Elt F) (v.writes (Elt F) v.junk [⟨Rect.unit off S.size inb, w⟩]) = w :=
  WholeBuffer.read_writes_cons_unit_zero v v.junk hoff inb w []

variable (v12 : Vec F S2048x128 .bf16) (x1 x2 : Vec F S16384x128 .bf16)

set_option maxHeartbeats 1000000 in
/-- One more trip: each accumulator receives one whole store whose payload is the step function of the trip's key
    and value tiles and of what the accumulators read as. -/
theorem pb_succ (k : ℕ) (h : k < k1_t1_loop.trips) :
    pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) (k + 1) =
      ((⟨(Rect.unit (s := S2048x1) ![0, 0] S2048x1.size inb_S2048x1_S2048x1_0_0), k1_pay5 (k1_pay8 (k1_pay4 v12) (tile x1 ⟨k, h⟩) (arg5.view.read (Elt F) (arg5.view.writes (Elt F) (G5 arg5) (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).1)))⟩ : View.Piece (Elt F) S2048x1 .f32) :: (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).1,
       (⟨(Rect.unit (s := S2048x1) ![0, 0] S2048x1.size inb_S2048x1_S2048x1_0_0), k1_pay11 (k1_pay4 v12) (tile x1 ⟨k, h⟩) (arg5.view.read (Elt F) (arg5.view.writes (Elt F) (G5 arg5) (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).1)) (arg6.view.read (Elt F) (arg6.view.writes (Elt F) (G6 arg6) (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).2.1))⟩ : View.Piece (Elt F) S2048x1 .f32) :: (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).2.1,
       (⟨(Rect.unit (s := S2048x128) ![0, 0] S2048x128.size inb_S2048x128_S2048x128_0_0), k1_pay12 (k1_pay4 v12) (tile x1 ⟨k, h⟩) (tile x2 ⟨k, h⟩) (arg5.view.read (Elt F) (arg5.view.writes (Elt F) (G5 arg5) (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).1)) (arg7.view.read (Elt F) (arg7.view.writes (Elt F) (G7 arg7) (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).2.2))⟩ : View.Piece (Elt F) S2048x128 .f32) :: (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).2.2) := by
  have hs := pb_k1_t1_succ (F := F) Variants.none c none i arg1 harg1 arg2 harg2 arg3 harg3 arg4 harg4 arg5 harg5 arg6 harg6 arg7 harg7 v12 (harg2.unread x1) (harg3.unread x2) (G5 arg5) (G6 arg6) (G7 arg7) ⟨k, h⟩
  rw [tripL_eq] at hs
  dsimp only [Fin.val_mk] at hs
  rw [readAt_whole arg5.view _ WholeBuffer.off2_zero, readAt_whole arg6.view _ WholeBuffer.off2_zero,
    readAt_whole arg7.view _ WholeBuffer.off2_zero, View.readAt_eq_ld, View.readAt_eq_ld,
    harg2.read_unread, harg3.read_unread] at hs
  exact hs

/-- After `k` trips each accumulator's buffer reads as the `k`-th iterate of the step function. -/
theorem inv (k : ℕ) (hk : k ≤ k1_t1_loop.trips) :
    arg5.view.read (Elt F) (arg5.view.writes (Elt F) (G5 arg5) (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).1) = (st v12 x1 x2 k).1
    ∧ arg6.view.read (Elt F) (arg6.view.writes (Elt F) (G6 arg6) (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).2.1) = (st v12 x1 x2 k).2.1
    ∧ arg7.view.read (Elt F) (arg7.view.writes (Elt F) (G7 arg7) (pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k).2.2) = (st v12 x1 x2 k).2.2 :=
  inv_abs arg5.view arg6.view arg7.view (G5 arg5) (G6 arg6) (G7 arg7) v12 x1 x2
    (fun k => pb_k1_t1 (F := F) Variants.none c none i arg1 harg1 arg2 harg2 arg3 harg3 arg4 harg4 arg5 harg5 arg6 harg6 arg7 harg7 v12 (harg2.unread x1) (harg3.unread x2) (G5 arg5) (G6 arg6) (G7 arg7) k)
    (pb_k1_t1.eq_1 ..)
    (read_init arg5.view WholeBuffer.off2_zero _ _) (read_init arg6.view WholeBuffer.off2_zero _ _) (read_init arg7.view WholeBuffer.off2_zero _ _)
    (fun k h => pb_succ c i arg1 harg1 arg2 harg2 arg3 harg3 arg4 harg4 arg5 harg5 arg6 harg6 arg7 harg7 v12 x1 x2 k h) k hk

set_option maxHeartbeats 1000000 in
/-- The block the body leaves in the output's staging buffer: the weighted sum over the denominator, after all trips. -/
theorem out_eq (x0 : Vec F S2048x128 .bf16) :
    out1_A_3 (F := F) c i arg1 harg1 arg2 harg2 arg3 harg3 arg4 harg4 arg5 harg5 arg6 harg6 arg7 harg7 x0 x1 x2
      = k1_pay6 (st x0 x1 x2 k1_t1_loop.trips).2.2 (st x0 x1 x2 k1_t1_loop.trips).2.1 := by
  have hi := inv c i arg1 harg1 arg2 harg2 arg3 harg3 arg4 harg4 arg5 harg5 arg6 harg6 arg7 harg7 x0 x1 x2 k1_t1_loop.trips le_rfl
  unfold out1_A_3 kernelRun1_A
  dsimp only
  sl_unfold_words
  rw [read_init VO1_3 WholeBuffer.off2_zero]
  rw [View.writes_append, View.writes_append]
  rw [readAt_whole arg7.view _ WholeBuffer.off2_zero, readAt_whole arg6.view _ WholeBuffer.off2_zero]
  rw [WholeBuffer.readAt_unit_zero_unread harg1 x0 WholeBuffer.off2_zero]
  exact congrArg₂ k1_pay6 hi.2.2 hi.2.1

end Body

end Cert.KernelIdeal.AttnLoop

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibGramDot.lean ====
/-
  A matrix product with the RIGHT factor transposed, read at an entry. For the dimension numbers of `M×K` by `N×K`
  contracting the two last axes (`DotDims.transposedRhs M K N`: what `A · Bᵀ` prints as when the matrix unit consumes the
  transposed operand natively), the sum over the one-axis contraction index of any function of the two operand indices is the
  sum over `k : Fin K` of that function at `(p, k)` and `(c, k)` (`sum_transposedRhs`). Hence, on the extended reals, a
  `tpu.matmul` into the zero accumulator read at `(p, c)` is `∑ k, A (p, k) * B (c, k)` (`matmul_transposedRhs_zero_apply`),
  for every `M`, `K`, `N`; with `B = A` it is the Gram matrix of the rows of `A`.
-/
import Idealize.ShloMosaic.PureOps.Ideal.Laws
import Idealize.ShloMosaic.Lib.ValueIdx

noncomputable section

open scoped BigOperators

namespace Cert.Lib.GramDot

open Idealize.ShloMosaic Idealize.ShloMosaic.ValueIdx

variable {M K N : Nat}

/-- The left operand's index at output `(p, c)` and contraction coordinate `k` is `(p, k)`. -/
theorem lhsIdx_transposedRhs (p : Fin M) (c : Fin N) (k : Fin K) :
    (DotDims.transposedRhs M K N).lhsIdx (ix2 p c) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p c) _).trans hk

/-- The right operand's index at output `(p, c)` and contraction coordinate `k` is `(c, k)`. -/
theorem rhsIdx_transposedRhs (p : Fin M) (c : Fin N) (k : Fin K) :
    (DotDims.transposedRhs M K N).rhsIdx (ix2 p c) ((contrEquiv1 (DotDims.transposedRhs M K N) K rfl rfl).symm k) = ix2 c k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p c) _).trans hk

/-- A sum over the contraction index, of any function of the two operand indices, is the sum over the shared axis. -/
theorem sum_transposedRhs {β : Type*} [AddCommMonoid β]
    (f : (⟨2, ![M, K]⟩ : Shape).Idx → (⟨2, ![N, K]⟩ : Shape).Idx → β) (p : Fin M) (c : Fin N) :
    ∑ q : (DotDims.transposedRhs M K N).contr.Idx,
        f ((DotDims.transposedRhs M K N).lhsIdx (ix2 p c) q) ((DotDims.transposedRhs M K N).rhsIdx (ix2 p c) q)
      = ∑ k : Fin K, f (ix2 p k) (ix2 c k) := by
  rw [← Equiv.sum_comp (contrEquiv1 (DotDims.transposedRhs M K N) K rfl rfl).symm]
  refine Finset.sum_congr rfl fun k _ => ?_
  rw [lhsIdx_transposedRhs, rhsIdx_transposedRhs]

/-- On the extended reals a `tpu.matmul` of `A : M×K` and `B : N×K` contracting the last axes, into the zero accumulator,
    read at `(p, c)`, is `∑ k, A (p, k) * B (c, k)`. -/
theorem matmul_transposedRhs_zero_apply {φ₁ φ₂ : FTy} (prec : Option ContractPrecision)
    (A : FVec Ideal ⟨2, ![M, K]⟩ φ₁) (B : FVec Ideal ⟨2, ![N, K]⟩ φ₂) (p : Fin M) (c : Fin N) :
    FloatOps.matmul (DotDims.transposedRhs M K N) prec A B (constant ⟨2, ![M, N]⟩ .f32 0x00000000#32) (ix2 p c)
      = ∑ k : Fin K, A (ix2 p k) * B (ix2 c k) :=
  (Ideal.matmul_constant_zero_apply (DotDims.transposedRhs M K N) prec A B (ix2 p c)).trans
    (sum_transposedRhs (fun i j => A i * B j) p c)

end Cert.Lib.GramDot

end
-- ==== Proof.LibRowMax.lean ====
/-
  The maximum over a matrix's last axis, read at exact arithmetic.

  A `vector.multi_reduction <maximumf>` over the last axis of an [a, b] matrix that starts from the f32 word
  `0xFF800000` is, at row p, the supremum over the b entries of that row. Four facts give it: at exact arithmetic
  the reduction over one axis is a fold of `max`, from the accumulator's value, over that axis's coordinates; a fold
  of `max` from the bottom element of a linear order is the supremum, whatever the order of the fold; the word
  `0xFF800000` (sign set, exponent all ones, significand zero) denotes -∞, the bottom element of the extended reals;
  and the index the reduction puts back over row p at coordinate k is (p, k).
-/
import Idealize.ShloMosaic.PureOps.Ideal.Laws
import Idealize.ShloMosaic.Lib.ValueIdx

noncomputable section

namespace Cert.Lib.RowMax

open Idealize.ShloMosaic Idealize.ShloMosaic.ValueIdx

/-- In a linear order with a bottom element, folding `max` from `⊥` over a finite set is the supremum over the set:
    `⊥` is the identity of `max`, and `max` is the join. -/
theorem fold_max_bot {ι α : Type*} [LinearOrder α] [OrderBot α] (s : Finset ι) (f : ι → α) :
    s.fold max ⊥ f = s.sup f := by
  induction s using Finset.cons_induction with
  | empty => rfl
  | cons a s ha ih => rw [Finset.fold_cons, Finset.sup_cons, ih]

/-- The f32 word `0xFF800000` denotes `-∞`, the bottom element of the extended reals. -/
theorem ofBits_neg_inf_f32 : Ideal.ofBits .f32 0xFF800000#32 = (⊥ : EReal) := by
  simp [Ideal.ofBits, Ideal.ieee]

/-- The maximum along the last axis of an `[a, b]` matrix from -∞, at row `p`: the supremum of the row's entries. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = Finset.univ.sup fun k : Fin b => src (ix2 p k) := by
  refine (Ideal.multiReduction_maximumf_single src _ h hφ hacc (ix1 p)).trans ?_
  have e : (Finset.univ : Finset (Fin b)).fold max (FloatOps.ofBits .f32 0xFF800000#32) (fun k => src (h.lift (ix1 p) k))
      = Finset.univ.sup fun k => src (h.lift (ix1 p) k) := by
    rw [show (FloatOps.ofBits .f32 0xFF800000#32 : Ideal .f32) = (⊥ : EReal) from ofBits_neg_inf_f32]
    exact fold_max_bot _ _
  refine e.trans ?_
  refine Finset.sup_congr rfl fun k _ => congrArg src ?_
  funext c
  match c with
  | ⟨0, _⟩ => exact Fin.ext rfl
  | ⟨1, _⟩ => exact Fin.ext rfl

end Cert.Lib.RowMax

end
-- ==== Proof.Payload.lean ====
/-
  The attention kernel's payloads read at an index, at exact arithmetic.

  One trip of the kernel's loop takes a block of 1024 key rows and 1024 value rows and updates, for each of the
  2048 query rows p, a running maximum, a running denominator and a running numerator. Writing
  `sc p b = ∑ c, q (p, c) * K (b, c)` for the score of query row p against key row b of the block, and
  `mx p = max (m p) (sup over b of sc p b)` for the new running maximum, the stored values are

    the maximum      mx p,
    the denominator  exp (m p - mx p) * l p + ∑ b, exp (sc p b - mx p),
    the numerator    exp (m p - mx p) * acc (p, d) + ∑ b, exp (sc p b - mx p) * V (b, d),

  and the values stored before the loop are -∞, 0 and 0; the value stored after it is acc (p, d) / l p. At exact
  arithmetic a change of format is the identity, a shape cast to the same shape is the identity, the product into
  the zero accumulator is the plain sum of products, the row maximum from -∞ is a supremum and the row sum from 0 is
  a sum, so each payload is read off its definition operation by operation.
-/
import proofs.«164752_j45981919871429_2_alg».proof.Proof.Gen.KernelIdeal.Skeleton
import proofs.«164752_j45981919871429_2_alg».proof.Proof.LibKeepdims
import proofs.«164752_j45981919871429_2_alg».proof.Proof.LibGramDot
import proofs.«164752_j45981919871429_2_alg».proof.Proof.LibPlainDot
import proofs.«164752_j45981919871429_2_alg».proof.Proof.LibRowMax

noncomputable section

open scoped BigOperators

namespace Cert.KernelIdeal.Payload

open Cert.KernelIdeal Cert.KernelIdeal.Gen Idealize.ShloMosaic Idealize.ShloMosaic.ValueIdx
open Cert.Lib

/-- The score of query row `p` against key row `b` of the block: the inner product of the two rows. -/
abbrev sc (q : Vec Ideal S2048x128 .bf16) (Kt : Vec Ideal S1024x128 .bf16) (p : Fin 2048) (b : Fin 1024) : EReal :=
  ∑ c : Fin 128, (q (ix2 p c) : EReal) * (Kt (ix2 b c) : EReal)

/-- The new running maximum of row `p`: the larger of the old one and the block's largest score. -/
abbrev mx (q : Vec Ideal S2048x128 .bf16) (Kt : Vec Ideal S1024x128 .bf16) (mv : Vec Ideal S2048x1 .f32)
    (p : Fin 2048) : EReal :=
  max (mv (ix2 p 0) : EReal) (Finset.univ.sup fun b : Fin 1024 => sc q Kt p b)

/-- The running maximum starts at -∞. -/
theorem pay1_apply (p : Fin 2048) : k1_pay1 (F := Ideal) (ix2 p 0) = ⊥ := by
  unfold k1_pay1
  rw [shapeCast_self]
  exact RowMax.ofBits_neg_inf_f32

/-- The running denominator starts at 0. -/
theorem pay2_apply (p : Fin 2048) : k1_pay2 (F := Ideal) (ix2 p 0) = 0 := by
  unfold k1_pay2
  rw [shapeCast_self]
  exact Ideal.ofBits_zero_f32

/-- The running numerator starts at 0. -/
theorem pay3_apply (p : Fin 2048) (d : Fin 128) : k1_pay3 (F := Ideal) (ix2 p d) = 0 := by
  unfold k1_pay3
  rw [shapeCast_self]
  exact Ideal.ofBits_zero_f32

/-- The query block is used as loaded. -/
theorem pay4_eq (q : Vec Ideal S2048x128 .bf16) : k1_pay4 (F := Ideal) q = q := by
  unfold k1_pay4
  exact shapeCast_self _ _

/-- The scores: the product with the transposed key block, into the zero accumulator. -/
theorem pay7_apply (q : Vec Ideal S2048x128 .bf16) (Kt : Vec Ideal S1024x128 .bf16) (p : Fin 2048) (b : Fin 1024) :
    k1_pay7 (F := Ideal) q Kt (ix2 p b) = sc q Kt p b := by
  unfold k1_pay7
  rw [shapeCast_self]
  exact GramDot.matmul_transposedRhs_zero_apply none q Kt p b

/-- The exponential of a vector reads, at an index, the exponential of the entry there. -/
theorem vexp_apply {s : Shape} {φ : FTy} (a : FVec Ideal s φ) (i : s.Idx) : exp a i = Ideal.exp (a i) := rfl

/-- The new running maximum: the old one against the row maximum of the scores. -/
theorem pay8_apply (q : Vec Ideal S2048x128 .bf16) (Kt : Vec Ideal S1024x128 .bf16) (mv : Vec Ideal S2048x1 .f32) (p : Fin 2048) :
    k1_pay8 (F := Ideal) q Kt mv (ix2 p 0) = mx q Kt mv p := by
  unfold k1_pay8
  refine (maximumf_apply mv _ (ix2 p 0)).trans ?_
  refine congrArg (max (mv (ix2 p 0) : EReal)) ?_
  refine (Keepdims.shapeCast_a_a1_apply _ _ p 0).trans ?_
  refine (RowMax.rowMax_apply (k1_pay7 (F := Ideal) q Kt) _ _ _ p).trans ?_
  exact Finset.sup_congr rfl fun b _ => pay7_apply q Kt p b

/-- The stored maximum is the new running maximum. -/
theorem pay5_apply (q : Vec Ideal S2048x128 .bf16) (Kt : Vec Ideal S1024x128 .bf16) (mv : Vec Ideal S2048x1 .f32) (p : Fin 2048) :
    k1_pay5 (F := Ideal) (k1_pay8 q Kt mv) (ix2 p 0) = mx q Kt mv p := by
  unfold k1_pay5
  refine (congrFun (shapeCast_self _ _) (ix2 p 0)).trans ?_
  exact pay8_apply q Kt mv p

/-- The factor that rescales the old sums to the new maximum. -/
theorem pay9_apply (q : Vec Ideal S2048x128 .bf16) (Kt : Vec Ideal S1024x128 .bf16) (mv : Vec Ideal S2048x1 .f32) (p : Fin 2048) :
    k1_pay9 (F := Ideal) q Kt mv (ix2 p 0) = Ideal.exp ((mv (ix2 p 0) : EReal) - mx q Kt mv p) := by
  unfold k1_pay9
  refine (vexp_apply _ (ix2 p 0)).trans ?_
  refine congrArg Ideal.exp ?_
  refine (subf_apply mv _ (ix2 p 0)).trans ?_
  exact congrArg (fun x : EReal => (mv (ix2 p 0) : EReal) - x) (pay8_apply q Kt mv p)

/-- The block's weights: the exponential of each score less the new maximum. -/
theorem pay10_apply (q : Vec Ideal S2048x128 .bf16) (Kt : Vec Ideal S1024x128 .bf16) (mv : Vec Ideal S2048x1 .f32) (p : Fin 2048) (b : Fin 1024) :
    k1_pay10 (F := Ideal) q Kt mv (ix2 p b) = Ideal.exp (sc q Kt p b - mx q Kt mv p) := by
  unfold k1_pay10
  refine (vexp_apply _ (ix2 p b)).trans ?_
  refine congrArg Ideal.exp ?_
  refine (subf_apply _ _ (ix2 p b)).trans ?_
  refine congrArg₂ (fun x y : EReal => x - y) (pay7_apply q Kt p b) ?_
  refine (Keepdims.broadcastTo_a1_ab_apply _ _ p b).trans ?_
  exact pay8_apply q Kt mv p

/-- The stored denominator: the old one rescaled, plus the block's weights summed along the row. -/
theorem pay11_apply (q : Vec Ideal S2048x128 .bf16) (Kt : Vec Ideal S1024x128 .bf16) (mv : Vec Ideal S2048x1 .f32) (lv : Vec Ideal S2048x1 .f32) (p : Fin 2048) :
    k1_pay11 (F := Ideal) q Kt mv lv (ix2 p 0)
      = Ideal.exp ((mv (ix2 p 0) : EReal) - mx q Kt mv p) * (lv (ix2 p 0) : EReal)
        + ∑ b : Fin 1024, Ideal.exp (sc q Kt p b - mx q Kt mv p) := by
  unfold k1_pay11
  refine (congrFun (shapeCast_self _ _) (ix2 p 0)).trans ?_
  refine (addf_apply _ _ (ix2 p 0)).trans ?_
  refine congrArg₂ (fun x y : EReal => x + y) ?_ ?_
  · refine (mulf_apply _ lv (ix2 p 0)).trans ?_
    exact congrArg (fun x : EReal => x * (lv (ix2 p 0) : EReal)) (pay9_apply q Kt mv p)
  · refine (Keepdims.shapeCast_a_a1_apply _ _ p 0).trans ?_
    refine (Keepdims.rowSum_apply (k1_pay10 (F := Ideal) q Kt mv) _ _ _ p).trans ?_
    exact Finset.sum_congr rfl fun b _ => pay10_apply q Kt mv p b

/-- The stored numerator: the old one rescaled, plus the block's weights times the value block. -/
theorem pay12_apply (q : Vec Ideal S2048x128 .bf16) (Kt : Vec Ideal S1024x128 .bf16) (Vt : Vec Ideal S1024x128 .bf16) (mv : Vec Ideal S2048x1 .f32) (av : Vec Ideal S2048x128 .f32)
    (p : Fin 2048) (d : Fin 128) :
    k1_pay12 (F := Ideal) q Kt Vt mv av (ix2 p d)
      = Ideal.exp ((mv (ix2 p 0) : EReal) - mx q Kt mv p) * (av (ix2 p d) : EReal)
        + ∑ b : Fin 1024, Ideal.exp (sc q Kt p b - mx q Kt mv p) * (Vt (ix2 b d) : EReal) := by
  unfold k1_pay12
  refine (congrFun (shapeCast_self _ _) (ix2 p d)).trans ?_
  refine (addf_apply _ _ (ix2 p d)).trans ?_
  refine congrArg₂ (fun x y : EReal => x + y) ?_ ?_
  · refine (mulf_apply _ av (ix2 p d)).trans ?_
    refine congrArg (fun x : EReal => x * (av (ix2 p d) : EReal)) ?_
    refine (Keepdims.broadcastTo_a1_ab_apply _ _ p d).trans ?_
    exact pay9_apply q Kt mv p
  · refine (PlainDot.matmul_plain_zero_apply none _ _ p d).trans ?_
    refine Finset.sum_congr rfl fun b _ => ?_
    refine congrArg₂ (fun x y : EReal => x * y) ?_ ?_
    · refine (truncf_apply (ψ := .bf16) (k1_pay10 (F := Ideal) q Kt mv) _ (ix2 p b)).trans ?_
      exact pay10_apply q Kt mv p b
    · exact congrFun (shapeCast_self Vt _) (ix2 b d)

/-- The result: the numerator over the denominator. -/
theorem pay6_apply (av : Vec Ideal S2048x128 .f32) (lv : Vec Ideal S2048x1 .f32) (p : Fin 2048) (d : Fin 128) :
    k1_pay6 (F := Ideal) av lv (ix2 p d) = Ideal.div (av (ix2 p d)) (lv (ix2 p 0)) := by
  unfold k1_pay6
  refine (divf_apply av _ (ix2 p d)).trans ?_
  exact congrArg (Ideal.div (av (ix2 p d))) (Keepdims.broadcastTo_a1_ab_apply _ _ p d)

end Cert.KernelIdeal.Payload

end
-- ==== Proof.RowN.lean ====
/-
  Key and value rows addressed by a natural number, and the tiles of scores and values the attention loop meets.

  The loop walks the 16384 key rows in 16 tiles of 1024. To speak of "row `1024·t + b`" without carrying a bound,
  a row of a [16384, 128] array is read through a total accessor that answers `0` past the end.
-/
import proofs.«164752_j45981919871429_2_alg».proof.Proof.Spec

noncomputable section

namespace Cert.AttnSpec

open Idealize.ShloMosaic Idealize.ShloMosaic.ValueIdx
open scoped BigOperators

/-- Entry `c` of row `j` of a [16384, 128] array, `0` for `j` past the end. -/
def rowN (X : SQ.Idx → EReal) (j : ℕ) (c : Fin 128) : EReal := if h : j < 16384 then X (ix2 ⟨j, h⟩ c) else 0

/-- The scores of query row `i` against the 1024 key rows of tile `t`. -/
def tileScores (q k : SQ.Idx → EReal) (i : Fin 16384) (t : ℕ) (b : Fin 1024) : EReal :=
  ∑ c : Fin 128, q (ix2 i c) * rowN k (1024 * t + b) c

/-- Column `d` of the 1024 value rows of tile `t`. -/
def tileVals (v : SQ.Idx → EReal) (d : Fin 128) (t : ℕ) (b : Fin 1024) : EReal := rowN v (1024 * t + b) d

theorem rowN_of_lt (X : SQ.Idx → EReal) {j : ℕ} (h : j < 16384) (c : Fin 128) : rowN X j c = X (ix2 ⟨j, h⟩ c) := dif_pos h

end Cert.AttnSpec

end
-- ==== Proof.LibOnlineSoftmax.lean ====
/-
  The online-softmax law on the extended reals.

  A softmax denominator accumulated tile by tile with a running maximum — state `(m, l)`, started at
  `(⊥, 0)`; at each tile `m' = max m (max of the tile)` and
  `l' = l * exp (m - m') + ∑ exp (x - m')` over the tile — ends, after the tiles have covered every
  position, at the pair (maximum of the column, `∑ exp (x - maximum)`) that the two-pass softmax computes.
  With `Ideal.exp` (`⊥ ↦ 0`, `⊤ ↦ ⊤`) and EReal's conventions (`⊤ - ⊤ = ⊥`, `⊥ - x = ⊥`, `0 * ⊤ = 0`) the law
  holds for EVERY column of extended reals, infinite entries included: the one identity it rests on,
  `exp (x - m) * exp (m - m') = exp (x - m')` for `x ≤ m ≤ m'`, has no exceptional corner
  (`exp_sub_mul_exp_sub`), and a sum of nonnegative extended reals distributes over a product
  (`sum_mul_of_nonneg`). Positions past the end of the column are masked to `⊥`, which neither moves a
  maximum nor adds to a sum (`exp (⊥ - m) = 0`).

  Main statements: `run_eq` (the accumulated pair is the two-pass pair), `online_eq_twoPass` (so the
  normalised values agree), then the two special columns spelt out: all entries real (`colMax_real`,
  `colSum_real`, `twoPass_real`, `online_real`) and all entries infinite (`colSum_junk`, `twoPass_junk`,
  `online_junk`, `colMax_all_top`).
-/
import Mathlib
import Idealize.ShloMosaic.PureOps.Ideal

noncomputable section

namespace OnlineSoftmax

open Idealize.ShloMosaic
open scoped BigOperators

/-! ### Definitions -/

/-- One step of the running-maximum accumulation on a tile `f` of `B` values: the new maximum is the old one
    joined with the tile's (a fold of `max` from `⊥`); the old sum is rescaled to the new maximum and the tile's
    exponentials, taken against the new maximum, are added. -/
def step {B : ℕ} (f : Fin B → EReal) (s : EReal × EReal) : EReal × EReal :=
  (max s.1 (Finset.univ.fold max ⊥ f),
   s.2 * Ideal.exp (s.1 - max s.1 (Finset.univ.fold max ⊥ f))
     + ∑ i : Fin B, Ideal.exp (f i - max s.1 (Finset.univ.fold max ⊥ f)))

/-- The accumulated pair (running maximum, running sum) after the first `t` tiles of the family `f`, from `(⊥, 0)`. -/
def run {B : ℕ} (f : ℕ → Fin B → EReal) : ℕ → EReal × EReal
  | 0 => (⊥, 0)
  | t + 1 => step (f t) (run f t)

/-- The column `lp` of length `N` continued by `⊥` past its end (the mask). -/
def masked (N : ℕ) (lp : ℕ → EReal) (j : ℕ) : EReal := if j < N then lp j else ⊥

/-- Tile `t` of width `B` of a column of length `N`: position `i` holds `lp (B * t + i)`, or `⊥` past the end. -/
def tile (N B : ℕ) (lp : ℕ → EReal) (t : ℕ) (i : Fin B) : EReal :=
  if B * t + i < N then lp (B * t + i) else ⊥

/-- The maximum of the column's `N` entries, as a fold of `max` from `⊥`. -/
def colMax (N : ℕ) (lp : ℕ → EReal) : EReal := Finset.univ.fold max ⊥ (fun j : Fin N => lp j)

/-- The two-pass softmax denominator: the sum over the column of `exp (x - maximum)`. -/
def colSum (N : ℕ) (lp : ℕ → EReal) : EReal := ∑ j : Fin N, Ideal.exp (lp j - colMax N lp)

/-- The maximum of the real column `g` over its first `N` entries (`0` for the empty column). -/
def rmax (N : ℕ) (g : ℕ → ℝ) : ℝ := ((Finset.range N).sup fun j => (g j : EReal)).toReal

/-! ### The two facts about `exp` and sums -/

/-- `Ideal.exp` is nonnegative everywhere. -/
theorem exp_nonneg (x : EReal) : 0 ≤ Ideal.exp x := by
  induction x using EReal.rec with
  | bot => simp
  | coe r => simp only [Ideal.exp_coe]; exact_mod_cast (Real.exp_pos r).le
  | top => simp

/-- Changing the reference point of an exponential from `m` to a larger `m'`: for `x ≤ m ≤ m'`,
    `exp (x - m) * exp (m - m') = exp (x - m')`, at the infinities too (there both sides are `0`, by
    `⊤ - ⊤ = ⊥`, `⊥ - y = ⊥`, `exp ⊥ = 0`). -/
theorem exp_sub_mul_exp_sub {x m m' : EReal} (h₁ : x ≤ m) (h₂ : m ≤ m') :
    Ideal.exp (x - m) * Ideal.exp (m - m') = Ideal.exp (x - m') := by
  induction x using EReal.rec <;> induction m using EReal.rec <;> induction m' using EReal.rec <;>
    simp_all
  rename_i a b c
  rw [← EReal.coe_sub, ← EReal.coe_sub, ← EReal.coe_sub, Ideal.exp_coe, Ideal.exp_coe, Ideal.exp_coe,
    ← EReal.coe_mul, ← Real.exp_add]
  congr 2; ring

/-- A finite sum of nonnegative extended reals distributes over a product on the right. -/
theorem sum_mul_of_nonneg {ι : Type*} (s : Finset ι) (a : ι → EReal) (c : EReal) (h : ∀ j ∈ s, 0 ≤ a j) :
    (∑ j ∈ s, a j) * c = ∑ j ∈ s, a j * c := by
  classical
  induction s using Finset.induction_on with
  | empty => simp
  | insert j s hj ih =>
    rw [Finset.sum_insert hj, Finset.sum_insert hj,
      EReal.right_distrib_of_nonneg (h j (Finset.mem_insert_self j s))
        (Finset.sum_nonneg fun i hi => h i (Finset.mem_insert_of_mem hi)),
      ih fun i hi => h i (Finset.mem_insert_of_mem hi)]

/-- Rescaling a sum of exponentials taken against its own maximum to any larger reference point. -/
theorem sum_exp_rescale {ι : Type*} (s : Finset ι) (a : ι → EReal) {m' : EReal} (h : s.sup a ≤ m') :
    (∑ j ∈ s, Ideal.exp (a j - s.sup a)) * Ideal.exp (s.sup a - m') = ∑ j ∈ s, Ideal.exp (a j - m') := by
  rw [sum_mul_of_nonneg _ _ _ fun j _ => exp_nonneg _]
  exact Finset.sum_congr rfl fun j hj => exp_sub_mul_exp_sub (Finset.le_sup hj) h

/-- The maximum over the first `n + k` positions is the maximum over the first `n` joined with the maximum
    over the next `k`. -/
theorem sup_range_add (a : ℕ → EReal) (n k : ℕ) :
    (Finset.range (n + k)).sup a = max ((Finset.range n).sup a) (Finset.univ.fold max ⊥ fun i : Fin k => a (n + i)) := by
  apply le_antisymm
  · refine Finset.sup_le fun j hj => ?_
    rcases lt_or_ge j n with h | h
    · exact le_max_of_le_left (Finset.le_sup (Finset.mem_range.2 h))
    · have hk : j - n < k := by have := Finset.mem_range.1 hj; omega
      refine le_max_of_le_right ?_
      have e : a j = (fun i : Fin k => a (n + i)) (⟨j - n, hk⟩ : Fin k) := by
        show a j = a (n + (j - n)); rw [Nat.add_sub_cancel' h]
      rw [e]
      exact Finset.le_sup (f := fun i : Fin k => a (n + i)) (Finset.mem_univ (⟨j - n, hk⟩ : Fin k))
  · refine max_le (Finset.sup_mono (Finset.range_mono (Nat.le_add_right n k))) ?_
    refine Finset.sup_le fun i _ => ?_
    exact Finset.le_sup (f := a) (Finset.mem_range.2 (by have := i.2; omega))

/-! ### The invariant -/

/-- After `t` tiles of width `B` of any sequence `a`, the accumulated pair is the maximum of the first `B * t`
    entries and the sum of their exponentials against that maximum. -/
theorem run_eq_range {B : ℕ} (a : ℕ → EReal) (t : ℕ) :
    run (fun t (i : Fin B) => a (B * t + i)) t
      = ((Finset.range (B * t)).sup a, ∑ j ∈ Finset.range (B * t), Ideal.exp (a j - (Finset.range (B * t)).sup a)) := by
  induction t with
  | zero => simp [run]
  | succ t ih =>
    have hm : (Finset.range (B * (t + 1))).sup a
        = max ((Finset.range (B * t)).sup a) (Finset.univ.fold max ⊥ fun i : Fin B => a (B * t + i)) := by
      rw [Nat.mul_succ, sup_range_add]
    rw [run, ih, step, ← hm]
    refine Prod.ext rfl ?_
    show _ + _ = _
    rw [sum_exp_rescale _ _ (hm ▸ le_max_left _ _), Nat.mul_succ, Finset.sum_range_add, Finset.sum_range
      (fun x => Ideal.exp (a (B * t + x) - (Finset.range (B * t + B)).sup a))]

/-! ### From tiles to the column -/

/-- A tile of the column is the corresponding stretch of the masked column. -/
theorem tile_eq_masked (N B : ℕ) (lp : ℕ → EReal) :
    tile N B lp = fun t (i : Fin B) => masked N lp (B * t + i) := rfl

/-- The column maximum as a supremum over the first `N` positions. -/
theorem colMax_eq_sup (N : ℕ) (lp : ℕ → EReal) : colMax N lp = (Finset.range N).sup lp := by
  apply le_antisymm
  · exact Finset.sup_le fun j _ => Finset.le_sup (f := lp) (Finset.mem_range.2 j.2)
  · exact Finset.sup_le fun j hj =>
      Finset.le_sup (f := fun j : Fin N => lp j) (Finset.mem_univ (⟨j, Finset.mem_range.1 hj⟩ : Fin N))

/-- Every entry of the column is at most the column maximum. -/
theorem le_colMax {N : ℕ} (lp : ℕ → EReal) {j : ℕ} (hj : j < N) : lp j ≤ colMax N lp := by
  rw [colMax_eq_sup]; exact Finset.le_sup (f := lp) (Finset.mem_range.2 hj)

/-- The two-pass denominator as a sum over the first `N` positions. -/
theorem colSum_eq_sum_range (N : ℕ) (lp : ℕ → EReal) :
    colSum N lp = ∑ j ∈ Finset.range N, Ideal.exp (lp j - colMax N lp) :=
  Fin.sum_univ_eq_sum_range (fun j => Ideal.exp (lp j - colMax N lp)) N

/-- Masking past the end does not change the maximum, once the positions cover the column. -/
theorem sup_masked {N K : ℕ} (lp : ℕ → EReal) (h : N ≤ K) :
    (Finset.range K).sup (masked N lp) = colMax N lp := by
  rw [colMax_eq_sup]
  apply le_antisymm
  · refine Finset.sup_le fun j _ => ?_
    unfold masked
    split_ifs with hj
    · exact Finset.le_sup (f := lp) (Finset.mem_range.2 hj)
    · exact bot_le
  · refine Finset.sup_le fun j hj => ?_
    have hj' := Finset.mem_range.1 hj
    have e : masked N lp j = lp j := if_pos hj'
    rw [← e]
    exact Finset.le_sup (f := masked N lp) (Finset.mem_range.2 (lt_of_lt_of_le hj' h))

/-- Masked positions add nothing to a sum of exponentials: `exp (⊥ - m) = exp ⊥ = 0`. -/
theorem sum_exp_masked {N K : ℕ} (lp : ℕ → EReal) (m : EReal) (h : N ≤ K) :
    ∑ j ∈ Finset.range K, Ideal.exp (masked N lp j - m) = ∑ j ∈ Finset.range N, Ideal.exp (lp j - m) := by
  rw [← Finset.sum_subset (Finset.range_mono h) (fun j _ hj => by
    have hn : ¬ j < N := fun h' => hj (Finset.mem_range.2 h')
    rw [masked, if_neg hn, EReal.bot_sub, Ideal.exp_bot])]
  exact Finset.sum_congr rfl fun j hj => by rw [masked, if_pos (Finset.mem_range.1 hj)]

/-! ### The law -/

/-- THE ONLINE-SOFTMAX LAW. Once `n` tiles of width `B` cover the column (`N ≤ B * n`), the pair accumulated with
    the running maximum is the two-pass pair: the column maximum and the sum of exponentials against it. For every
    column of extended reals. -/
theorem run_eq {N B n : ℕ} (lp : ℕ → EReal) (h : N ≤ B * n) :
    run (tile N B lp) n = (colMax N lp, colSum N lp) := by
  rw [tile_eq_masked, run_eq_range (masked N lp) n, sup_masked lp h, sum_exp_masked lp _ h, colSum_eq_sum_range]

/-- The accumulated pair after `n` tiles depends only on the first `n` tiles. -/
theorem run_congr {B : ℕ} {f g : ℕ → Fin B → EReal} {n : ℕ} (h : ∀ t < n, f t = g t) : run f n = run g n := by
  induction n with
  | zero => rfl
  | succ n ih => rw [run, run, h n (Nat.lt_succ_self n), ih fun t ht => h t (Nat.lt_succ_of_lt ht)]

/-- The law for any tile family that agrees with the column's tiles on the first `n` tiles. -/
theorem run_eq_of_tiles {N B n : ℕ} (lp : ℕ → EReal) {f : ℕ → Fin B → EReal} (h : N ≤ B * n)
    (hf : ∀ t < n, ∀ i, f t i = tile N B lp t i) : run f n = (colMax N lp, colSum N lp) := by
  rw [run_congr (g := tile N B lp) fun t ht => funext (hf t ht), run_eq lp h]

/-- The accumulated maximum is the column maximum. -/
theorem run_fst {N B n : ℕ} (lp : ℕ → EReal) (h : N ≤ B * n) : (run (tile N B lp) n).1 = colMax N lp := by
  rw [run_eq lp h]

/-- The accumulated sum is the two-pass denominator. -/
theorem run_snd {N B n : ℕ} (lp : ℕ → EReal) (h : N ≤ B * n) : (run (tile N B lp) n).2 = colSum N lp := by
  rw [run_eq lp h]

/-- So a value normalised with the accumulated pair is the value normalised with the two-pass pair. -/
theorem online_eq_twoPass {N B n : ℕ} (lp : ℕ → EReal) (h : N ≤ B * n) (x : EReal) :
    Ideal.div (Ideal.exp (x - (run (tile N B lp) n).1)) (run (tile N B lp) n).2
      = Ideal.div (Ideal.exp (x - colMax N lp)) (colSum N lp) := by
  rw [run_eq lp h]

/-! ### A real column -/

/-- The coercion of a finite real sum is the sum of the coercions. -/
theorem coe_sum {ι : Type*} (s : Finset ι) (f : ι → ℝ) :
    ((∑ j ∈ s, f j : ℝ) : EReal) = ∑ j ∈ s, (f j : EReal) := by
  classical
  induction s using Finset.induction_on with
  | empty => simp
  | insert j s hj ih => rw [Finset.sum_insert hj, Finset.sum_insert hj, EReal.coe_add, ih]

/-- The maximum of a nonempty real column is the real maximum `rmax`. -/
theorem colMax_real {N : ℕ} {lp : ℕ → EReal} {g : ℕ → ℝ} (hN : 0 < N) (hg : ∀ j < N, lp j = (g j : EReal)) :
    colMax N lp = (rmax N g : EReal) := by
  have hs : (Finset.range N).sup lp = (Finset.range N).sup fun j => (g j : EReal) :=
    Finset.sup_congr rfl fun j hj => hg j (Finset.mem_range.1 hj)
  obtain ⟨j, -, e⟩ := Finset.exists_mem_eq_sup (Finset.range N) (Finset.nonempty_range_iff.2 hN.ne')
    (fun j => (g j : EReal))
  rw [colMax_eq_sup, hs, rmax, e, EReal.toReal_coe]

/-- Every entry of a real column is at most `rmax`. -/
theorem le_rmax {N : ℕ} (g : ℕ → ℝ) {j : ℕ} (hj : j < N) : g j ≤ rmax N g := by
  have h := le_colMax (N := N) (fun j => (g j : EReal)) hj
  rw [colMax_real (Nat.zero_lt_of_lt hj) (fun _ _ => rfl)] at h
  exact_mod_cast h

/-- `rmax` is attained on a nonempty column. -/
theorem exists_eq_rmax {N : ℕ} (g : ℕ → ℝ) (hN : 0 < N) : ∃ j < N, g j = rmax N g := by
  obtain ⟨j, hj, e⟩ := Finset.exists_mem_eq_sup (Finset.range N) (Finset.nonempty_range_iff.2 hN.ne')
    (fun j => (g j : EReal))
  exact ⟨j, Finset.mem_range.1 hj, by rw [rmax, e, EReal.toReal_coe]⟩

/-- The two-pass denominator of a nonempty real column is the real sum of exponentials against `rmax`. -/
theorem colSum_real {N : ℕ} {lp : ℕ → EReal} {g : ℕ → ℝ} (hN : 0 < N) (hg : ∀ j < N, lp j = (g j : EReal)) :
    colSum N lp = ((∑ j : Fin N, Real.exp (g j - rmax N g) : ℝ) : EReal) := by
  rw [colSum, colMax_real hN hg, coe_sum]
  exact Finset.sum_congr rfl fun j _ => by rw [hg j j.2, ← EReal.coe_sub, Ideal.exp_coe]

/-- A nonempty real sum of exponentials is positive. -/
theorem sum_exp_pos {N : ℕ} (hN : 0 < N) (g : ℕ → ℝ) (M : ℝ) : 0 < ∑ j : Fin N, Real.exp (g j - M) :=
  haveI : Nonempty (Fin N) := ⟨⟨0, hN⟩⟩
  Finset.sum_pos (fun j _ => Real.exp_pos _) Finset.univ_nonempty

/-- The two-pass softmax of a nonempty real column is the real softmax. -/
theorem twoPass_real {N : ℕ} {lp : ℕ → EReal} {g : ℕ → ℝ} (hN : 0 < N) (hg : ∀ j < N, lp j = (g j : EReal))
    {j : ℕ} (hj : j < N) :
    Ideal.div (Ideal.exp (lp j - colMax N lp)) (colSum N lp)
      = ((Real.exp (g j - rmax N g) / ∑ i : Fin N, Real.exp (g i - rmax N g) : ℝ) : EReal) := by
  rw [colSum_real hN hg, colMax_real hN hg, hg j hj, ← EReal.coe_sub, Ideal.exp_coe,
    Ideal.div_coe (sum_exp_pos hN g _).ne', ← EReal.coe_mul, mul_one_div]

/-- The online softmax of a nonempty real column is the real softmax. -/
theorem online_real {N B n : ℕ} {lp : ℕ → EReal} {g : ℕ → ℝ} (h : N ≤ B * n) (hN : 0 < N)
    (hg : ∀ j < N, lp j = (g j : EReal)) {j : ℕ} (hj : j < N) :
    Ideal.div (Ideal.exp (lp j - (run (tile N B lp) n).1)) (run (tile N B lp) n).2
      = ((Real.exp (g j - rmax N g) / ∑ i : Fin N, Real.exp (g i - rmax N g) : ℝ) : EReal) := by
  rw [online_eq_twoPass lp h, twoPass_real hN hg hj]

/-- The accumulated maximum of a nonempty real column is `rmax`. -/
theorem run_fst_real {N B n : ℕ} {lp : ℕ → EReal} {g : ℕ → ℝ} (h : N ≤ B * n) (hN : 0 < N)
    (hg : ∀ j < N, lp j = (g j : EReal)) : (run (tile N B lp) n).1 = (rmax N g : EReal) := by
  rw [run_fst lp h, colMax_real hN hg]

/-- The accumulated sum of a nonempty real column is the real sum of exponentials against `rmax`. -/
theorem run_snd_real {N B n : ℕ} {lp : ℕ → EReal} {g : ℕ → ℝ} (h : N ≤ B * n) (hN : 0 < N)
    (hg : ∀ j < N, lp j = (g j : EReal)) :
    (run (tile N B lp) n).2 = ((∑ j : Fin N, Real.exp (g j - rmax N g) : ℝ) : EReal) := by
  rw [run_snd lp h, colSum_real hN hg]

/-! ### A column of infinities -/

/-- In a column whose entries are all `⊤` or `⊥`, every exponential against the column maximum vanishes: a `⊥`
    entry gives `exp ⊥`; a `⊤` entry makes the maximum `⊤`, and `⊤ - ⊤ = ⊥`. -/
theorem exp_sub_colMax_junk {N : ℕ} {lp : ℕ → EReal} (hl : ∀ j < N, lp j = ⊤ ∨ lp j = ⊥) {j : ℕ} (hj : j < N) :
    Ideal.exp (lp j - colMax N lp) = 0 := by
  rcases hl j hj with h | h
  · have hm : colMax N lp = ⊤ := top_le_iff.1 (h ▸ le_colMax lp hj)
    rw [h, hm, EReal.sub_top, Ideal.exp_bot]
  · rw [h, EReal.bot_sub, Ideal.exp_bot]

/-- So its two-pass denominator is `0`. -/
theorem colSum_junk {N : ℕ} {lp : ℕ → EReal} (hl : ∀ j < N, lp j = ⊤ ∨ lp j = ⊥) : colSum N lp = 0 :=
  Finset.sum_eq_zero fun j _ => exp_sub_colMax_junk hl j.2

/-- … and its two-pass softmax is `0 / 0`, the junk value `⊥`, at every position. -/
theorem twoPass_junk {N : ℕ} {lp : ℕ → EReal} (hl : ∀ j < N, lp j = ⊤ ∨ lp j = ⊥) {j : ℕ} (hj : j < N) :
    Ideal.div (Ideal.exp (lp j - colMax N lp)) (colSum N lp) = ⊥ := by
  rw [exp_sub_colMax_junk hl hj, colSum_junk hl]
  simp [Ideal.div]

/-- The accumulated sum of such a column is `0`. -/
theorem run_snd_junk {N B n : ℕ} {lp : ℕ → EReal} (h : N ≤ B * n) (hl : ∀ j < N, lp j = ⊤ ∨ lp j = ⊥) :
    (run (tile N B lp) n).2 = 0 := by
  rw [run_snd lp h, colSum_junk hl]

/-- Every exponential of such a column against the accumulated maximum vanishes. -/
theorem exp_sub_run_fst_junk {N B n : ℕ} {lp : ℕ → EReal} (h : N ≤ B * n) (hl : ∀ j < N, lp j = ⊤ ∨ lp j = ⊥)
    {j : ℕ} (hj : j < N) : Ideal.exp (lp j - (run (tile N B lp) n).1) = 0 := by
  rw [run_fst lp h, exp_sub_colMax_junk hl hj]

/-- The online softmax of such a column is `⊥` at every position. -/
theorem online_junk {N B n : ℕ} {lp : ℕ → EReal} (h : N ≤ B * n) (hl : ∀ j < N, lp j = ⊤ ∨ lp j = ⊥)
    {j : ℕ} (hj : j < N) :
    Ideal.div (Ideal.exp (lp j - (run (tile N B lp) n).1)) (run (tile N B lp) n).2 = ⊥ := by
  rw [online_eq_twoPass lp h, twoPass_junk hl hj]

/-- The maximum of a nonempty column of `⊤`s is `⊤`. -/
theorem colMax_all_top {N : ℕ} {lp : ℕ → EReal} (hN : 0 < N) (hl : ∀ j < N, lp j = ⊤) : colMax N lp = ⊤ :=
  top_le_iff.1 (hl 0 hN ▸ le_colMax lp hN)

/-- The two-pass softmax of a column of `⊤`s is `⊥` at every position. -/
theorem twoPass_all_top {N : ℕ} {lp : ℕ → EReal} (hl : ∀ j < N, lp j = ⊤) {j : ℕ} (hj : j < N) :
    Ideal.div (Ideal.exp (lp j - colMax N lp)) (colSum N lp) = ⊥ :=
  twoPass_junk (fun j hj => Or.inl (hl j hj)) hj

end OnlineSoftmax
-- ==== Proof.LibOnlineAttention.lean ====
/-
  The online (tile-by-tile) softmax-weighted sum on the extended reals.

  For one row of scores `g` and one column of values `w`, attention computes the weighted sum
  `∑ j, softmax (g) j * w j`. The two-pass form takes the maximum of the row, the exponentials against it and
  their sum, divides every exponential by that sum, and only then weights and adds. The online form walks the
  row in tiles of `B` positions with a state `(m, l, acc)` started at `(⊥, 0, 0)`; at each tile
  `m' = max m (maximum of the tile)`, `l' = exp (m - m') * l + ∑ exp (x - m')` and
  `acc' = exp (m - m') * acc + ∑ exp (x - m') * (value)` over the tile, and it divides once, at the end:
  `acc / l`.

  The invariant (`run_eq_range`) holds for every sequence of extended reals: after `t` tiles the state is the
  maximum `S` of the first `B * t` scores, `∑ exp (x - S)` and `∑ exp (x - S) * (value)` over them. It
  rests on the change of reference point `exp (x - m) * exp (m - m') = exp (x - m')` for `x ≤ m ≤ m'` and on
  the fact that the rescaling factor `exp (m - m')`, for `m ≤ m'`, is a nonnegative extended real other than
  `⊤`, so that multiplication by it distributes over a finite sum of arbitrary extended reals
  (`mul_sum_of_nonneg_of_ne_top`); at the start `exp (⊥ - m') = exp ⊥ = 0` and the sums are empty.

  For real data (`run_real`) the state after `n ≥ 1` tiles of width `B ≥ 1` is a triple of reals: the real
  maximum `M`, `∑ exp (g j - M)`, a positive real, and `∑ exp (g j - M) * w j`. Dividing in `ℝ` and
  distributing the division over the sum gives the law (`online_attention_real`): the online quotient
  `acc / l` is the two-pass sum `∑ j, (exp (g j - M) / ∑ j', exp (g j' - M)) * w j`, the division inside the sum.
-/
import Mathlib
import Idealize.ShloMosaic.PureOps.Ideal
import proofs.«164752_j45981919871429_2_alg».proof.Proof.LibOnlineSoftmax

noncomputable section

namespace OnlineAttention

open Idealize.ShloMosaic
open scoped BigOperators

/-! ### Definitions -/

/-- One tile: `f` holds the tile's `B` scores, `u` the tile's `B` values (one output column); the state is
    `(m, l, acc)`. The new maximum is the old one joined with the tile's; the old sum and the old weighted sum
    are rescaled to the new maximum, and the tile's exponentials against the new maximum are added, bare and
    weighted by the values. -/
def step {B : ℕ} (f u : Fin B → EReal) (s : EReal × EReal × EReal) : EReal × EReal × EReal :=
  (max s.1 (Finset.univ.sup f),
   Ideal.exp (s.1 - max s.1 (Finset.univ.sup f)) * s.2.1
     + ∑ i : Fin B, Ideal.exp (f i - max s.1 (Finset.univ.sup f)),
   Ideal.exp (s.1 - max s.1 (Finset.univ.sup f)) * s.2.2
     + ∑ i : Fin B, Ideal.exp (f i - max s.1 (Finset.univ.sup f)) * u i)

/-- The state after the first `t` tiles of the score family `f` and the value family `u`, from `(⊥, 0, 0)`. -/
def run {B : ℕ} (f u : ℕ → Fin B → EReal) : ℕ → EReal × EReal × EReal
  | 0 => (⊥, 0, 0)
  | t + 1 => step (f t) (u t) (run f u t)

/-- The state after `n` tiles depends only on the first `n` tiles. -/
theorem run_congr {B : ℕ} {f f' u u' : ℕ → Fin B → EReal} {n : ℕ}
    (hf : ∀ t < n, f t = f' t) (hu : ∀ t < n, u t = u' t) : run f u n = run f' u' n := by
  induction n with
  | zero => rfl
  | succ n ih =>
    rw [run, run, hf n (Nat.lt_succ_self n), hu n (Nat.lt_succ_self n),
      ih (fun t ht => hf t (Nat.lt_succ_of_lt ht)) (fun t ht => hu t (Nat.lt_succ_of_lt ht))]

/-! ### The rescaling factor and sums -/

/-- The rescaling factor `exp (m - m')` for `m ≤ m'` is never `⊤`: the difference is a real, or it is `⊥`
    (`⊥ - x = ⊥`, `x - ⊤ = ⊥`), where the exponential is `0`. -/
theorem exp_ne_top_of_le {m m' : EReal} (h : m ≤ m') : Ideal.exp (m - m') ≠ ⊤ := by
  induction m using EReal.rec with
  | bot => simp
  | top =>
    have e : m' = ⊤ := top_le_iff.1 h
    subst e; simp
  | coe a =>
    induction m' using EReal.rec with
    | bot => simp at h
    | top => simp
    | coe b => rw [← EReal.coe_sub, Ideal.exp_coe]; exact EReal.coe_ne_top _

/-- Multiplication by a nonnegative extended real other than `⊤` distributes over a finite sum of arbitrary
    extended reals. -/
theorem mul_sum_of_nonneg_of_ne_top {ι : Type*} (s : Finset ι) (x : ι → EReal) {c : EReal}
    (h0 : 0 ≤ c) (ht : c ≠ ⊤) : c * ∑ j ∈ s, x j = ∑ j ∈ s, c * x j := by
  classical
  induction s using Finset.induction_on with
  | empty => simp
  | insert j s hj ih =>
    rw [Finset.sum_insert hj, Finset.sum_insert hj, EReal.left_distrib_of_nonneg_of_ne_top h0 ht, ih]

/-- Rescaling a weighted sum of exponentials taken against its own maximum to any larger reference point. -/
theorem sum_exp_mul_rescale {ι : Type*} (s : Finset ι) (a v : ι → EReal) {m' : EReal} (h : s.sup a ≤ m') :
    Ideal.exp (s.sup a - m') * ∑ j ∈ s, Ideal.exp (a j - s.sup a) * v j
      = ∑ j ∈ s, Ideal.exp (a j - m') * v j := by
  rw [mul_sum_of_nonneg_of_ne_top _ _ (OnlineSoftmax.exp_nonneg _) (exp_ne_top_of_le h)]
  refine Finset.sum_congr rfl fun j hj => ?_
  rw [← mul_assoc, mul_comm (Ideal.exp (s.sup a - m')),
    OnlineSoftmax.exp_sub_mul_exp_sub (Finset.le_sup hj) h]

/-- The maximum over the first `n + k` positions is the maximum over the first `n` joined with the maximum over
    the next `k`. -/
theorem sup_range_add (a : ℕ → EReal) (n k : ℕ) :
    (Finset.range (n + k)).sup a
      = max ((Finset.range n).sup a) (Finset.univ.sup fun i : Fin k => a (n + i)) :=
  OnlineSoftmax.sup_range_add a n k

/-! ### The invariant -/

/-- After `t` tiles of width `B` of any score sequence `a` and any value sequence `v`, the state is the
    maximum `S` of the first `B * t` scores, the sum of their exponentials against `S`, and the sum of those
    exponentials weighted by the values. -/
theorem run_eq_range {B : ℕ} (a v : ℕ → EReal) (t : ℕ) :
    run (fun t (i : Fin B) => a (B * t + i)) (fun t (i : Fin B) => v (B * t + i)) t
      = ((Finset.range (B * t)).sup a,
         ∑ j ∈ Finset.range (B * t), Ideal.exp (a j - (Finset.range (B * t)).sup a),
         ∑ j ∈ Finset.range (B * t), Ideal.exp (a j - (Finset.range (B * t)).sup a) * v j) := by
  induction t with
  | zero => simp [run]
  | succ t ih =>
    have hm : (Finset.range (B * (t + 1))).sup a
        = max ((Finset.range (B * t)).sup a) (Finset.univ.sup fun i : Fin B => a (B * t + i)) := by
      rw [Nat.mul_succ, sup_range_add]
    have hle : (Finset.range (B * t)).sup a ≤ (Finset.range (B * (t + 1))).sup a :=
      hm ▸ le_max_left _ _
    rw [run, ih, step, ← hm]
    refine Prod.ext rfl (Prod.ext ?_ ?_)
    · show _ * _ + _ = ∑ j ∈ Finset.range (B * (t + 1)), Ideal.exp (a j - (Finset.range (B * (t + 1))).sup a)
      rw [mul_comm (Ideal.exp _), OnlineSoftmax.sum_exp_rescale _ _ hle, Nat.mul_succ,
        Finset.sum_range_add, Finset.sum_range
          (fun x => Ideal.exp (a (B * t + x) - (Finset.range (B * t + B)).sup a))]
    · show _ * _ + _
        = ∑ j ∈ Finset.range (B * (t + 1)), Ideal.exp (a j - (Finset.range (B * (t + 1))).sup a) * v j
      rw [sum_exp_mul_rescale _ _ _ hle, Nat.mul_succ, Finset.sum_range_add, Finset.sum_range
        (fun x => Ideal.exp (a (B * t + x) - (Finset.range (B * t + B)).sup a) * v (B * t + x))]

/-! ### Real data -/

/-- For real scores `g` and real values `w`, the state after the tiles have covered `B * n ≥ 1` positions is a
    triple of reals: the real maximum `M` of the scores, `∑ exp (g j - M)` and `∑ exp (g j - M) * w j`. -/
theorem run_real {B n : ℕ} (hN : 0 < B * n) (g w : ℕ → ℝ) :
    run (fun t (i : Fin B) => ((g (B * t + i) : ℝ) : EReal)) (fun t (i : Fin B) => ((w (B * t + i) : ℝ) : EReal)) n
      = (((OnlineSoftmax.rmax (B * n) g : ℝ) : EReal),
         ((∑ j ∈ Finset.range (B * n), Real.exp (g j - OnlineSoftmax.rmax (B * n) g) : ℝ) : EReal),
         ((∑ j ∈ Finset.range (B * n), Real.exp (g j - OnlineSoftmax.rmax (B * n) g) * w j : ℝ) : EReal)) := by
  have hS : (Finset.range (B * n)).sup (fun j => ((g j : ℝ) : EReal))
      = ((OnlineSoftmax.rmax (B * n) g : ℝ) : EReal) := by
    rw [← OnlineSoftmax.colMax_eq_sup, OnlineSoftmax.colMax_real hN (fun _ _ => rfl)]
  rw [run_eq_range (fun j => ((g j : ℝ) : EReal)) (fun j => ((w j : ℝ) : EReal)) n, hS]
  refine Prod.ext rfl (Prod.ext ?_ ?_)
  · show ∑ j ∈ Finset.range (B * n), _ = ((∑ j ∈ Finset.range (B * n), _ : ℝ) : EReal)
    rw [OnlineSoftmax.coe_sum]
    exact Finset.sum_congr rfl fun j _ => by rw [← EReal.coe_sub, Ideal.exp_coe]
  · show ∑ j ∈ Finset.range (B * n), _ = ((∑ j ∈ Finset.range (B * n), _ : ℝ) : EReal)
    rw [OnlineSoftmax.coe_sum]
    exact Finset.sum_congr rfl fun j _ => by rw [← EReal.coe_sub, Ideal.exp_coe, ← EReal.coe_mul]

/-- A nonempty real sum of exponentials over an initial stretch is positive. -/
theorem sum_range_exp_pos {N : ℕ} (hN : 0 < N) (g : ℕ → ℝ) (M : ℝ) :
    0 < ∑ j ∈ Finset.range N, Real.exp (g j - M) :=
  Finset.sum_pos (fun j _ => Real.exp_pos _) (Finset.nonempty_range_iff.2 hN.ne')

/-- The final maximum for real data is the real maximum of the row. -/
theorem run_m_real {B n : ℕ} (hB : 0 < B) (hn : 0 < n) (g w : ℕ → ℝ) :
    (run (fun t (i : Fin B) => ((g (B * t + i) : ℝ) : EReal))
        (fun t (i : Fin B) => ((w (B * t + i) : ℝ) : EReal)) n).1
      = ((OnlineSoftmax.rmax (B * n) g : ℝ) : EReal) := by
  rw [run_real (Nat.mul_pos hB hn)]

/-- The final denominator for real data is a positive real: the sum of the exponentials against the maximum. -/
theorem run_l_real {B n : ℕ} (hB : 0 < B) (hn : 0 < n) (g w : ℕ → ℝ) :
    (run (fun t (i : Fin B) => ((g (B * t + i) : ℝ) : EReal))
        (fun t (i : Fin B) => ((w (B * t + i) : ℝ) : EReal)) n).2.1
      = ((∑ j ∈ Finset.range (B * n), Real.exp (g j - OnlineSoftmax.rmax (B * n) g) : ℝ) : EReal)
    ∧ 0 < ∑ j ∈ Finset.range (B * n), Real.exp (g j - OnlineSoftmax.rmax (B * n) g) := by
  rw [run_real (Nat.mul_pos hB hn)]
  exact ⟨rfl, sum_range_exp_pos (Nat.mul_pos hB hn) g _⟩

/-- The final weighted sum for real data is the real sum of the exponentials against the maximum, weighted by
    the values. -/
theorem run_acc_real {B n : ℕ} (hB : 0 < B) (hn : 0 < n) (g w : ℕ → ℝ) :
    (run (fun t (i : Fin B) => ((g (B * t + i) : ℝ) : EReal))
        (fun t (i : Fin B) => ((w (B * t + i) : ℝ) : EReal)) n).2.2
      = ((∑ j ∈ Finset.range (B * n), Real.exp (g j - OnlineSoftmax.rmax (B * n) g) * w j : ℝ) : EReal) := by
  rw [run_real (Nat.mul_pos hB hn)]

/-- THE LAW for real data: `g` is one row of scores, `w` one column of values, both total on `ℕ`; `B * n`
    positions in `n` tiles of `B`. The online quotient `acc / l` after `n` tiles is the two-pass sum
    `∑ j, softmax (g) j * w j`, with the division inside the sum. -/
theorem online_attention_real {B n : ℕ} (hB : 0 < B) (hn : 0 < n) (g w : ℕ → ℝ) :
    Ideal.div
        (run (fun t (i : Fin B) => ((g (B * t + i) : ℝ) : EReal))
          (fun t (i : Fin B) => ((w (B * t + i) : ℝ) : EReal)) n).2.2
        (run (fun t (i : Fin B) => ((g (B * t + i) : ℝ) : EReal))
          (fun t (i : Fin B) => ((w (B * t + i) : ℝ) : EReal)) n).2.1
      = ∑ j : Fin (B * n),
          Ideal.div
              (Ideal.exp ((g j : EReal) - Finset.univ.sup fun j' : Fin (B * n) => ((g j' : ℝ) : EReal)))
              (∑ j' : Fin (B * n),
                Ideal.exp ((g j' : EReal) - Finset.univ.sup fun j'' : Fin (B * n) => ((g j'' : ℝ) : EReal)))
            * ((w j : ℝ) : EReal) := by
  have hN : 0 < B * n := Nat.mul_pos hB hn
  have hsup : (Finset.univ.sup fun j' : Fin (B * n) => ((g j' : ℝ) : EReal))
      = ((OnlineSoftmax.rmax (B * n) g : ℝ) : EReal) :=
    OnlineSoftmax.colMax_real (lp := fun j => ((g j : ℝ) : EReal)) hN (fun _ _ => rfl)
  have hL := sum_range_exp_pos hN g (OnlineSoftmax.rmax (B * n) g)
  have hden : (∑ j' : Fin (B * n), Ideal.exp ((g j' : EReal) - ((OnlineSoftmax.rmax (B * n) g : ℝ) : EReal)))
      = ((∑ j ∈ Finset.range (B * n), Real.exp (g j - OnlineSoftmax.rmax (B * n) g) : ℝ) : EReal) := by
    rw [← Fin.sum_univ_eq_sum_range (fun j => Real.exp (g j - OnlineSoftmax.rmax (B * n) g)),
      OnlineSoftmax.coe_sum]
    exact Finset.sum_congr rfl fun j _ => by rw [← EReal.coe_sub, Ideal.exp_coe]
  have hterm : ∀ j : Fin (B * n),
      Ideal.div (Ideal.exp ((g j : EReal) - ((OnlineSoftmax.rmax (B * n) g : ℝ) : EReal)))
          ((∑ j ∈ Finset.range (B * n), Real.exp (g j - OnlineSoftmax.rmax (B * n) g) : ℝ) : EReal)
        * ((w j : ℝ) : EReal)
      = ((Real.exp (g j - OnlineSoftmax.rmax (B * n) g)
            * (1 / ∑ j ∈ Finset.range (B * n), Real.exp (g j - OnlineSoftmax.rmax (B * n) g)) * w j : ℝ) : EReal) :=
    fun j => by
      rw [Ideal.div_coe hL.ne', ← EReal.coe_sub, Ideal.exp_coe, ← EReal.coe_mul, ← EReal.coe_mul]
  rw [run_acc_real hB hn, (run_l_real hB hn g w).1, hsup, hden, Finset.sum_congr rfl fun j _ => hterm j,
    ← OnlineSoftmax.coe_sum, Ideal.div_coe hL.ne', ← EReal.coe_mul]
  congr 1
  rw [Fin.sum_univ_eq_sum_range
      (fun j => Real.exp (g j - OnlineSoftmax.rmax (B * n) g)
        * (1 / ∑ j ∈ Finset.range (B * n), Real.exp (g j - OnlineSoftmax.rmax (B * n) g)) * w j),
    Finset.sum_mul]
  exact Finset.sum_congr rfl fun j _ => by ring

end OnlineAttention
-- ==== Proof.AttnIndex.lean ====
/-
  The attention loop's accumulators read at an index.

  The loop keeps, for every query row `p` of the block and every output column `d`, a running maximum, a running
  denominator and a running weighted sum, updated once per tile of 1024 key rows. Read at `(p, d)`, the update is
  one step of the online recursion on the row's scores against the tile's keys and on column `d` of the tile's
  values: the payload equations are that step coordinate by coordinate, and a tile read at `(b, c)` is the array
  read at row `1024·k + b`. By induction on the number of tiles the three accumulators at `(p, d)` are the
  recursion's state, and the block written back is its weighted sum over its denominator after all sixteen tiles.
-/
import proofs.«164752_j45981919871429_2_alg».proof.Proof.AttnLoop
import proofs.«164752_j45981919871429_2_alg».proof.Proof.Payload
import proofs.«164752_j45981919871429_2_alg».proof.Proof.RowN
import proofs.«164752_j45981919871429_2_alg».proof.Proof.LibOnlineAttention

noncomputable section

open scoped BigOperators

namespace Cert.KernelIdeal.AttnIndex

open Cert.KernelIdeal Cert.KernelIdeal.Gen Idealize.ShloMosaic Idealize.ShloMosaic.ValueIdx
open Cert.AttnSpec (rowN rowN_of_lt)

/-- The scores of query row `p` of the block `x0` against the keys of tile `t`. -/
def scores (x0 : Vec Ideal S2048x128 .bf16) (x1 : Vec Ideal S16384x128 .bf16) (p : Fin 2048) (t : ℕ) (b : Fin 1024) : EReal :=
  ∑ c : Fin 128, (x0 (ix2 p c) : EReal) * rowN x1 (1024 * t + b) c

/-- Column `d` of the values of tile `t`. -/
def vals (x2 : Vec Ideal S16384x128 .bf16) (d : Fin 128) (t : ℕ) (b : Fin 1024) : EReal :=
  rowN x2 (1024 * t + b) d

/-- The loop runs over sixteen key tiles. -/
theorem trips_eq : k1_t1_loop.trips = 16 := by decide

/-- Entry `(b, c)` of tile `k` is entry `(1024·k + b, c)` of the array. -/
theorem tile_apply (X : Vec Ideal S16384x128 .bf16) (k : Fin k1_t1_loop.trips) (b : Fin 1024) (c : Fin 128) :
    AttnLoop.tile X k (ix2 b c) = rowN X (1024 * k.val + b.val) c := by
  have hk : k.val < 16 := Nat.lt_of_lt_of_le k.isLt k1_t1_abs.2.1
  have hj : 1024 * k.val + b.val < 16384 := by have := b.isLt; omega
  rw [rowN_of_lt X hj]
  show X ((Rect.unit (s := S16384x128) (k1_off1 k) S1024x128.size (k1_off1_inb k)).idx (ix2 b c)) = _
  refine congrArg X (funext fun a => Fin.ext ?_)
  rw [LoadRect.idx_apply]
  simp only [Rect.off_unit, Rect.stride_unit, k1_off1_eq]
  match a with
  | ⟨0, _⟩ => simp
  | ⟨1, _⟩ => simp

/-- The scores against tile `k`, read through the tile, are the scores against the array's rows `1024·k + b`. -/
theorem sc_tile (x0 : Vec Ideal S2048x128 .bf16) (x1 : Vec Ideal S16384x128 .bf16) (k : Fin k1_t1_loop.trips)
    (p : Fin 2048) (b : Fin 1024) : Payload.sc x0 (AttnLoop.tile x1 k) p b = scores x0 x1 p k.val b :=
  Finset.sum_congr rfl fun c _ => congrArg ((x0 (ix2 p c) : EReal) * ·) (tile_apply x1 k b c)

/-- The new running maximum, likewise. -/
theorem mx_tile (x0 : Vec Ideal S2048x128 .bf16) (x1 : Vec Ideal S16384x128 .bf16) (k : Fin k1_t1_loop.trips)
    (mv : Vec Ideal S2048x1 .f32) (p : Fin 2048) :
    Payload.mx x0 (AttnLoop.tile x1 k) mv p
      = max (mv (ix2 p 0) : EReal) (Finset.univ.sup (scores x0 x1 p k.val)) :=
  congrArg (max (mv (ix2 p 0) : EReal)) (Finset.sup_congr rfl fun b _ => sc_tile x0 x1 k p b)

/-- One more tile: the accumulators after `k + 1` tiles, for `k` below the trip count. -/
theorem st_succ (x0 : Vec Ideal S2048x128 .bf16) (x1 x2 : Vec Ideal S16384x128 .bf16) (k : ℕ)
    (h : k < k1_t1_loop.trips) :
    AttnLoop.st x0 x1 x2 (k + 1)
      = (k1_pay5 (k1_pay8 (k1_pay4 x0) (AttnLoop.tile x1 ⟨k, h⟩) (AttnLoop.st x0 x1 x2 k).1),
         k1_pay11 (k1_pay4 x0) (AttnLoop.tile x1 ⟨k, h⟩) (AttnLoop.st x0 x1 x2 k).1 (AttnLoop.st x0 x1 x2 k).2.1,
         k1_pay12 (k1_pay4 x0) (AttnLoop.tile x1 ⟨k, h⟩) (AttnLoop.tile x2 ⟨k, h⟩) (AttnLoop.st x0 x1 x2 k).1
           (AttnLoop.st x0 x1 x2 k).2.2) := by
  rw [AttnLoop.st, dif_pos h]

/-- The accumulators after `k` tiles, read at query row `p` and output column `d`, are the state of the online
    recursion on that row's scores and that column's values after `k` tiles. -/
theorem st_apply (x0 : Vec Ideal S2048x128 .bf16) (x1 x2 : Vec Ideal S16384x128 .bf16) (p : Fin 2048) (d : Fin 128)
    (k : ℕ) (hk : k ≤ k1_t1_loop.trips) :
    (((AttnLoop.st x0 x1 x2 k).1 (ix2 p 0) : EReal), ((AttnLoop.st x0 x1 x2 k).2.1 (ix2 p 0) : EReal),
        ((AttnLoop.st x0 x1 x2 k).2.2 (ix2 p d) : EReal))
      = OnlineAttention.run (scores x0 x1 p) (vals x2 d) k := by
  induction k with
  | zero =>
    show ((k1_pay1 (F := Ideal) (ix2 p 0) : EReal), (k1_pay2 (F := Ideal) (ix2 p 0) : EReal),
      (k1_pay3 (F := Ideal) (ix2 p d) : EReal)) = (⊥, 0, 0)
    rw [Payload.pay1_apply, Payload.pay2_apply, Payload.pay3_apply]
  | succ k ih =>
    have hlt : k < k1_t1_loop.trips := hk
    show _ = OnlineAttention.step (scores x0 x1 p k) (vals x2 d k) (OnlineAttention.run (scores x0 x1 p) (vals x2 d) k)
    rw [← ih (Nat.le_of_lt hlt), st_succ x0 x1 x2 k hlt]
    unfold OnlineAttention.step
    dsimp only
    rw [Payload.pay4_eq, Payload.pay5_apply, Payload.pay11_apply, Payload.pay12_apply, mx_tile x0 x1 ⟨k, hlt⟩]
    refine Prod.ext rfl (Prod.ext ?_ ?_)
    · exact congrArg (_ + ·) (Finset.sum_congr rfl fun b _ => by rw [sc_tile x0 x1 ⟨k, hlt⟩])
    · exact congrArg (_ + ·) (Finset.sum_congr rfl fun b _ => by
        rw [sc_tile x0 x1 ⟨k, hlt⟩, tile_apply x2 ⟨k, hlt⟩]; rfl)

/-- The block written back, read at `(p, d)`: the online recursion's weighted sum over its denominator after all
    sixteen tiles. -/
theorem out_apply (x0 : Vec Ideal S2048x128 .bf16) (x1 x2 : Vec Ideal S16384x128 .bf16) (p : Fin 2048) (d : Fin 128) :
    k1_pay6 (F := Ideal) (AttnLoop.st x0 x1 x2 k1_t1_loop.trips).2.2 (AttnLoop.st x0 x1 x2 k1_t1_loop.trips).2.1 (ix2 p d)
      = Ideal.div (OnlineAttention.run (scores x0 x1 p) (vals x2 d) 16).2.2
          (OnlineAttention.run (scores x0 x1 p) (vals x2 d) 16).2.1 := by
  have h := st_apply x0 x1 x2 p d k1_t1_loop.trips le_rfl
  rw [trips_eq] at h
  rw [Payload.pay6_apply, ← h, trips_eq]

end Cert.KernelIdeal.AttnIndex

end
-- ==== Proof.SpecReal.lean ====
/-
  Realness of the specification's intermediate arrays: an affine projection of real arrays is a real array, and the
  inner product of two rows of real arrays is a real. (Sums and products are taken in the extended reals; on reals
  they agree with the real ones.)
-/
import proofs.«164752_j45981919871429_2_alg».proof.Proof.Spec
import Mathlib

namespace Cert.AttnSpec

open Idealize.ShloMosaic Idealize.ShloMosaic.ValueIdx
open scoped BigOperators

/-- The product of two reals, taken in the extended reals, is a real. -/
theorem mul_real {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- The sum of two reals, taken in the extended reals, is a real. -/
theorem add_real {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

/-- A finite sum of reals, taken in the extended reals, is a real. -/
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact add_real (hf a (Finset.mem_insert_self a s)) (ih fun i hi => hf i (Finset.mem_insert_of_mem hi))

/-- The affine projection `x · W + b` of real arrays is a real array. -/
theorem proj_real {x : SX.Idx → EReal} {W : SW.Idx → EReal} {b : SB.Idx → EReal}
    (hx : ∀ j, ∃ r : ℝ, x j = (r : EReal)) (hW : ∀ j, ∃ r : ℝ, W j = (r : EReal))
    (hb : ∀ j, ∃ r : ℝ, b j = (r : EReal)) :
    ∀ j, ∃ r : ℝ, proj x W b j = (r : EReal) := by
  intro j
  show ∃ r : ℝ, (∑ k : Fin 256, x (ix2 (j 0) k) * W (ix2 k (j 1))) + b (ix1 (j 1)) = (r : EReal)
  exact add_real (sum_real _ _ fun k _ => mul_real (hx _) (hW _)) (hb _)

/-- The inner product of two rows of real arrays is a real. -/
theorem score_real {q k : SQ.Idx → EReal} (hq : ∀ j, ∃ r : ℝ, q j = (r : EReal))
    (hk : ∀ j, ∃ r : ℝ, k j = (r : EReal)) (i j : Fin 16384) :
    ∃ r : ℝ, score q k i j = (r : EReal) := by
  show ∃ r : ℝ, (∑ c : Fin 128, q (ix2 i c) * k (ix2 j c)) = (r : EReal)
  exact sum_real _ _ fun c _ => mul_real (hq _) (hk _)

end Cert.AttnSpec
-- ==== Proof.OnlineBridge.lean ====
/-
  The tile-by-tile attention of one query row against the 16384 key rows is the two-pass attention.

  For real arrays `q`, `k`, `v` the scores of a query row against the key rows are reals, and so are the entries of
  a value column. Tile `t` of the walk (1024 rows) holds the scores and the values at rows `1024·t + b`. After 16
  tiles the accumulated weighted sum over the accumulated denominator is, by the law of the online softmax for real
  data, the sum over all `1024 · 16 = 16384` rows of the exponential against the row maximum, divided by the sum of
  those exponentials, times the value: the two-pass form of the specification.
-/
import proofs.«164752_j45981919871429_2_alg».proof.Proof.RowN
import proofs.«164752_j45981919871429_2_alg».proof.Proof.SpecReal
import proofs.«164752_j45981919871429_2_alg».proof.Proof.LibOnlineAttention
import Mathlib

noncomputable section

namespace Cert.AttnSpec

open Idealize.ShloMosaic Idealize.ShloMosaic.ValueIdx
open scoped BigOperators

/-! ## The tiles are stretches of the row -/

/-- Entry `b` of tile `t` of the scores is the score against key row `1024·t + b`. -/
theorem tileScores_eq (q k : SQ.Idx → EReal) (i : Fin 16384) (t : ℕ) (b : Fin 1024) (h : 1024 * t + b.val < 16384) :
    tileScores q k i t b = score q k i ⟨1024 * t + b.val, h⟩ := by
  unfold tileScores score
  exact Finset.sum_congr rfl fun c _ => by rw [rowN_of_lt k h c]

/-- Entry `b` of tile `t` of a value column is the value at row `1024·t + b`. -/
theorem tileVals_eq (v : SQ.Idx → EReal) (d : Fin 128) (t : ℕ) (b : Fin 1024) (h : 1024 * t + b.val < 16384) :
    tileVals v d t b = v (ix2 ⟨1024 * t + b.val, h⟩ d) :=
  rowN_of_lt v h d

/-! ## The real data -/

/-- The scores of query row `i` as real numbers, indexed by the key row's number (`0` past the end). -/
def scoreRe (q k : SQ.Idx → EReal) (i : Fin 16384) (j : ℕ) : ℝ :=
  if h : j < 16384 then (score q k i ⟨j, h⟩).toReal else 0

/-- Column `d` of the values as real numbers, indexed by the row's number (`0` past the end). -/
def valRe (v : SQ.Idx → EReal) (d : Fin 128) (j : ℕ) : ℝ :=
  if h : j < 16384 then (v (ix2 ⟨j, h⟩ d)).toReal else 0

/-- For real arrays the real score, read back in the extended reals, is the score. -/
theorem coe_scoreRe {q k : SQ.Idx → EReal} (hq : ∀ j, ∃ r : ℝ, q j = (r : EReal))
    (hk : ∀ j, ∃ r : ℝ, k j = (r : EReal)) (i : Fin 16384) (j : Fin 16384) :
    ((scoreRe q k i j.val : ℝ) : EReal) = score q k i j := by
  obtain ⟨r, hr⟩ := score_real hq hk i j
  unfold scoreRe
  rw [dif_pos j.isLt]
  show (((score q k i j).toReal : ℝ) : EReal) = score q k i j
  rw [hr, EReal.toReal_coe]

/-- For a real array the real value, read back in the extended reals, is the value. -/
theorem coe_valRe {v : SQ.Idx → EReal} (hv : ∀ j, ∃ r : ℝ, v j = (r : EReal)) (d : Fin 128) (j : Fin 16384) :
    ((valRe v d j.val : ℝ) : EReal) = v (ix2 j d) := by
  obtain ⟨r, hr⟩ := hv (ix2 j d)
  unfold valRe
  rw [dif_pos j.isLt]
  show (((v (ix2 j d)).toReal : ℝ) : EReal) = v (ix2 j d)
  rw [hr, EReal.toReal_coe]

/-! ## The law -/

/-- The accumulated weighted sum over the accumulated denominator after 16 tiles of 1024 key rows is the two-pass
    softmax-weighted sum over the 16384 key rows. -/
theorem online_eq_twoPass (q k v : SQ.Idx → EReal)
    (hq : ∀ j, ∃ r : ℝ, q j = (r : EReal)) (hk : ∀ j, ∃ r : ℝ, k j = (r : EReal)) (hv : ∀ j, ∃ r : ℝ, v j = (r : EReal))
    (i : Fin 16384) (d : Fin 128) :
    Ideal.div (OnlineAttention.run (tileScores q k i) (tileVals v d) 16).2.2 (OnlineAttention.run (tileScores q k i) (tileVals v d) 16).2.1
      = twoPassAt q k v i d := by
  have hf : ∀ t < 16, tileScores q k i t = fun b : Fin 1024 => ((scoreRe q k i (1024 * t + b) : ℝ) : EReal) := by
    intro t ht
    funext b
    have h : 1024 * t + b.val < 16384 := by have := b.isLt; omega
    rw [tileScores_eq q k i t b h]
    exact (coe_scoreRe hq hk i ⟨1024 * t + b.val, h⟩).symm
  have hu : ∀ t < 16, tileVals v d t = fun b : Fin 1024 => ((valRe v d (1024 * t + b) : ℝ) : EReal) := by
    intro t ht
    funext b
    have h : 1024 * t + b.val < 16384 := by have := b.isLt; omega
    rw [tileVals_eq v d t b h]
    exact (coe_valRe hv d ⟨1024 * t + b.val, h⟩).symm
  rw [OnlineAttention.run_congr hf hu,
    OnlineAttention.online_attention_real (B := 1024) (n := 16) (by norm_num) (by norm_num) (scoreRe q k i) (valRe v d)]
  generalize hN : 1024 * 16 = N
  obtain rfl : N = 16384 := by omega
  simp only [coe_scoreRe hq hk i, coe_valRe hv d]
  unfold twoPassAt rowSum rowMax
  rfl

end Cert.AttnSpec

end
-- ==== Proof.Finite.lean ====
/-
  Finiteness of the inputs. The precondition says that, for each of the seven argument arrays, the conjunction
  over all entries of "|x| < +∞" is true. Read back: every entry of every argument array is a real number.
-/
import proofs.«164752_j45981919871429_2_alg».proof.Defs
import Idealize.ShloMosaic.Lib.ReduceAll
import Idealize.ShloMosaic.Lib.ValueIdx

namespace Cert.KernelIdeal.Finite

open Idealize.ShloMosaic Idealize.SL.Sem Cert.KernelIdeal

/-- The shape with no axes has exactly one index. -/
instance : Subsingleton Cert.Pre_finite_inputs.S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` lies below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison `|x| < +∞` being true says that `x` is a real. -/
theorem elt_real (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : Ideal.cmp .olt (max x (-x)) (Ideal.ofBits .f32 0x7F800000#32) = 1#1 := h
  rw [ofBits_inf] at h'
  simp only [Ideal.cmp] at h'
  by_contra hc
  simp [hc] at h'

/-- One array of any shape: `all (|x| < +∞)` being true says that every entry of `x` is a real. -/
theorem all_real {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf (F := Ideal) (φ := .f32) .olt (Host.absf (F := Ideal) (φ := .f32) x)
        (broadcastInDim s ![] hb (constant (F := Ideal) Cert.Pre_finite_inputs.S_ .f32 0x7F800000#32))) init hr hu j = 1#1) :
    ∀ i, ∃ r : ℝ, x i = (r : EReal) := fun i =>
  elt_real (x i) (Host.reduce_andi_all _ init hr hu j e i)

/-- The precondition, read back: on every device, every entry of each of the seven argument arrays is a real. -/
theorem real_args [hPre_finite_inputs : Cert.Pre_finite_inputs.Facts] (m : (ℓ : Loc nD τ sig) → Buf (Elt Ideal) ℓ)
    (h : Cert.Pre_KernelIdeal m) (c : Dev nD) :
    (∀ j, ∃ r : ℝ, (m ((c.tc : Thread nD τ).loc main_arg0) : S16384x256.Idx → EReal) j = (r : EReal))
    ∧ (∀ j, ∃ r : ℝ, (m ((c.tc : Thread nD τ).loc main_arg1) : S256x128.Idx → EReal) j = (r : EReal))
    ∧ (∀ j, ∃ r : ℝ, (m ((c.tc : Thread nD τ).loc main_arg2) : S128.Idx → EReal) j = (r : EReal))
    ∧ (∀ j, ∃ r : ℝ, (m ((c.tc : Thread nD τ).loc main_arg3) : S256x128.Idx → EReal) j = (r : EReal))
    ∧ (∀ j, ∃ r : ℝ, (m ((c.tc : Thread nD τ).loc main_arg4) : S128.Idx → EReal) j = (r : EReal))
    ∧ (∀ j, ∃ r : ℝ, (m ((c.tc : Thread nD τ).loc main_arg5) : S256x128.Idx → EReal) j = (r : EReal))
    ∧ (∀ j, ∃ r : ℝ, (m ((c.tc : Thread nD τ).loc main_arg6) : S128.Idx → EReal) j = (r : EReal)) := by
  have h0 := congrFun (h c) ValueIdx.ix0
  dsimp only [Cert.Pre_finite_inputs.fn, Cert.Pre_finite_inputs.fn_part1, andi] at h0
  simp only [IntOp.andi_eq_one] at h0
  obtain ⟨⟨⟨⟨⟨⟨e0, e1⟩, e2⟩, e3⟩, e4⟩, e5⟩, e6⟩ := h0
  exact ⟨all_real _ _ _ _ _ _ e0, all_real _ _ _ _ _ _ e1, all_real _ _ _ _ _ _ e2, all_real _ _ _ _ _ _ e3,
    all_real _ _ _ _ _ _ e4, all_real _ _ _ _ _ _ e5, all_real _ _ _ _ _ _ e6⟩

end Cert.KernelIdeal.Finite
-- ==== Proof.KernelValue.lean ====
/-
  The kernel's result array is the two-pass attention of the three projections.

  The first kernel leaves the query, key and value projections in three arrays. At each of its eight grid points
  the attention kernel reads 2048 query rows and the whole key and value arrays, walks the key rows in sixteen
  tiles of 1024 keeping a running maximum, denominator and weighted sum, and writes back the weighted sum divided by
  the denominator. Entry `(p, d)` of that block is the online-softmax recursion run on the scores of query row
  `2048·t + p` against the key tiles and on column `d` of the value tiles; on real inputs the recursion's quotient is
  the two-pass attention. The eight blocks tile the result array.
-/
import proofs.«164752_j45981919871429_2_alg».proof.Proof.Region1Cover
import proofs.«164752_j45981919871429_2_alg».proof.Proof.Region0
import proofs.«164752_j45981919871429_2_alg».proof.Proof.KernelRun
import proofs.«164752_j45981919871429_2_alg».proof.Proof.AttnLoop
import proofs.«164752_j45981919871429_2_alg».proof.Proof.AttnOut
import proofs.«164752_j45981919871429_2_alg».proof.Proof.AttnIndex
import proofs.«164752_j45981919871429_2_alg».proof.Proof.RowN
import proofs.«164752_j45981919871429_2_alg».proof.Proof.OnlineBridge
import proofs.«164752_j45981919871429_2_alg».proof.Proof.Finite
import proofs.«164752_j45981919871429_2_alg».proof.Proof.SpecReal

noncomputable section

namespace Cert.KernelIdeal.KernelValue

open Cert.KernelIdeal Cert.KernelIdeal.Gen Idealize.ShloMosaic Idealize.ShloMosaic.TcCoe Idealize.ShloMosaic.ValueIdx
open Idealize.SL.Sem Cert.AttnSpec
open scoped BigOperators

/-! ## The tiles the loop meets are the specification's tiles -/

/-- The scores of row `p` of a query block against the key tiles are those of query row `r`, when the block's row `p`
    is the query array's row `r` and the key block is the key array. -/
theorem scores_eq (x0 : Vec Ideal S2048x128 .bf16) (x1 : Vec Ideal S16384x128 .bf16) (q k : SQ.Idx → EReal)
    (p : Fin 2048) (r : Fin 16384) (hx0 : ∀ c : Fin 128, x0 (ix2 p c) = q (ix2 r c))
    (hx1 : (x1 : S16384x128.Idx → EReal) = k) :
    AttnIndex.scores x0 x1 p = tileScores q k r := by
  funext t b
  unfold AttnIndex.scores tileScores
  refine Finset.sum_congr rfl fun c _ => ?_
  rw [hx0 c, hx1]

/-- Column `d` of the value tiles, when the value block is the value array. -/
theorem vals_eq (x2 : Vec Ideal S16384x128 .bf16) (v : SQ.Idx → EReal) (d : Fin 128)
    (hx2 : (x2 : S16384x128.Idx → EReal) = v) :
    AttnIndex.vals x2 d = tileVals v d := by
  funext t b
  unfold AttnIndex.vals tileVals
  rw [hx2]

/-! ## One block -/

/-- Entry `(p, d)` of the block the kernel leaves, from a query block whose row `p` is row `r` of real queries `q`
    and from the whole arrays of real keys `k` and values `v`: the two-pass attention of row `r`, column `d`. -/
theorem block_value (c : Dev nD) (i : grid1.Coords) (arg1 : Memref sig .tc .vmem S2048x128 .bf16) (harg1 : arg1.IsWhole) (arg2 : Memref sig .tc .vmem S16384x128 .bf16) (harg2 : arg2.IsWhole)
    (arg3 : Memref sig .tc .vmem S16384x128 .bf16) (harg3 : arg3.IsWhole) (arg4 : Memref sig .tc .vmem S2048x128 .f32) (harg4 : arg4.IsWhole)
    (arg5 : Memref sig .tc .vmem S2048x1 .f32) (harg5 : arg5.IsWhole) (arg6 : Memref sig .tc .vmem S2048x1 .f32) (harg6 : arg6.IsWhole)
    (arg7 : Memref sig .tc .vmem S2048x128 .f32) (harg7 : arg7.IsWhole)
    (x0 : Vec Ideal S2048x128 .bf16) (x1 x2 : Vec Ideal S16384x128 .bf16) (q k v : SQ.Idx → EReal)
    (hq : ∀ j, ∃ r : ℝ, q j = (r : EReal)) (hk : ∀ j, ∃ r : ℝ, k j = (r : EReal)) (hv : ∀ j, ∃ r : ℝ, v j = (r : EReal))
    (p : Fin 2048) (d : Fin 128) (r : Fin 16384) (hx0 : ∀ c' : Fin 128, x0 (ix2 p c') = q (ix2 r c'))
    (hx1 : (x1 : S16384x128.Idx → EReal) = k) (hx2 : (x2 : S16384x128.Idx → EReal) = v) :
    out1_A_3 (F := Ideal) c i arg1 harg1 arg2 harg2 arg3 harg3 arg4 harg4 arg5 harg5 arg6 harg6 arg7 harg7 x0 x1 x2 (ix2 p d)
      = twoPassAt q k v r d := by
  rw [AttnLoop.out_eq, AttnIndex.out_apply x0 x1 x2 p d, scores_eq x0 x1 q k p r hx0 hx1, vals_eq x2 v d hx2]
  exact online_eq_twoPass q k v hq hk hv r d

/-! ## Every point's block, and the array -/

/-- What point `t` leaves in row `p` of the output's buffer is row `2048·t + p` of the two-pass attention, when the
    arrays the attention kernel finds are real arrays `q`, `k`, `v`. -/
theorem point_eq (V : (c : Dev nD) → (b : Ref sig .tc) → Buf (Elt Ideal) ((c : Thread nD τ).loc b)) (c : Dev nD)
    (q k v : SQ.Idx → EReal)
    (eq : (V c main_v3_0 : S16384x128.Idx → EReal) = q) (ek : (V c main_v3_1 : S16384x128.Idx → EReal) = k)
    (ev : (V c main_v3_2 : S16384x128.Idx → EReal) = v)
    (hq : ∀ j, ∃ r : ℝ, q j = (r : EReal)) (hk : ∀ j, ∃ r : ℝ, k j = (r : EReal)) (hv : ∀ j, ∃ r : ℝ, v j = (r : EReal))
    (t : Fin cfg1.N) (p : Fin 2048) (d : Fin 128) :
    outsAt1 (F := Ideal) V c t (ix2 p d) = twoPass q k v (ix2 (Region1.row t p) d) := by
  rw [twoPass_apply]
  unfold outsAt1
  exact block_value c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)
    (iblk1 (F := Ideal) V c 0 t) (iblk1 (F := Ideal) V c 1 t) (iblk1 (F := Ideal) V c 2 t) q k v hq hk hv p d (Region1.row t p)
    (fun c' => (Region1.qblock_apply V c t p c').trans (congrFun eq _))
    ((Region1.kblock_eq V c t).trans ek) ((Region1.vblock_eq V c t).trans ev)

/-- The kernel's result array, on inputs that are all real: the two-pass attention of the three projections. -/
theorem result_eq [hPre_finite_inputs : Cert.Pre_finite_inputs.Facts] (m : (ℓ : Loc nD τ sig) → Buf (Elt Ideal) ℓ)
    (ρ : Dev nD → PrngReg) (h : Cert.Pre_KernelIdeal m) (c : Dev nD) :
    (Gen.W3 (F := Ideal) m ρ c (Proc.devRef .tc main_v4) : S16384x128.Idx → EReal)
      = Cert.AttnSpec.twoPass
          (Cert.AttnSpec.proj (m ((c.tc : Thread nD τ).loc main_arg0)) (m ((c.tc : Thread nD τ).loc main_arg1)) (m ((c.tc : Thread nD τ).loc main_arg2)))
          (Cert.AttnSpec.proj (m ((c.tc : Thread nD τ).loc main_arg0)) (m ((c.tc : Thread nD τ).loc main_arg3)) (m ((c.tc : Thread nD τ).loc main_arg4)))
          (Cert.AttnSpec.proj (m ((c.tc : Thread nD τ).loc main_arg0)) (m ((c.tc : Thread nD τ).loc main_arg5)) (m ((c.tc : Thread nD τ).loc main_arg6))) := by
  obtain ⟨r0, r1, r2, r3, r4, r5, r6⟩ := Finite.real_args m h c
  refine (RunValue.W3_result m ρ c).trans ?_
  exact Region1.arrAt_of_blocks (V2 m ρ) c _ fun t p d =>
    point_eq (V2 m ρ) c _ _ _ (Region0.q_eq m ρ c) (Region0.k_eq m ρ c) (Region0.v_eq m ρ c)
      (proj_real r0 r1 r2) (proj_real r0 r3 r4) (proj_real r0 r5 r6) t p d

end Cert.KernelIdeal.KernelValue

end
-- ==== Proof.LibMaxReduce.lean ====
/-
  The maximum-reduction of an array along one axis, read at the extended reals.

  A reduction by `max` that starts from the bottom element is a supremum: the order of the fold is
  immaterial and the starting value is absorbed.  The first lemma says so for any finite set in any linear
  order with a bottom element; the second reads the f32 word `0xFF800000` as that bottom element; the third
  applies both to a one-operand host reduction by `maximumf` over ONE axis, giving the supremum over that
  axis's coordinates of the operand at the result index with the coordinate inserted.
-/
import Idealize.ShloMosaic.PureOps.Ideal.Laws

noncomputable section

namespace Cert.LibMaxReduce

open Idealize.ShloMosaic

/-- In a linear order with a bottom element, folding `max` from `⊥` over a finite set is the supremum over
    the set: `⊥` is the identity of `max`, and `max` is the join. -/
theorem fold_max_bot_eq_sup {ι α : Type*} [LinearOrder α] [OrderBot α] (s : Finset ι) (f : ι → α) :
    s.fold max ⊥ f = s.sup f := by
  induction s using Finset.cons_induction with
  | empty => rfl
  | cons a s ha ih => rw [Finset.fold_cons, Finset.sup_cons, ih]

/-- The f32 word `0xFF800000` (sign set, exponent all ones, significand zero) denotes `-∞`, the bottom
    element of the extended reals. -/
theorem ofBits_neg_inf_f32 : Ideal.ofBits .f32 0xFF800000#32 = ⊥ := by
  simp [Ideal.ofBits, Ideal.ieee]

/-- At the extended reals the fold of `maximumf` from `⊥` over a finite set is the supremum over the set. -/
theorem fold_maximumf_bot_eq_sup {ι : Type*} {φ : FTy} (s : Finset ι) (f : ι → Ideal φ) :
    s.fold (FloatOps.maximumf (F := Ideal) (φ := φ)) ⊥ f = s.sup f := by
  induction s using Finset.cons_induction with
  | empty => rfl
  | cons a s ha ih => rw [Finset.fold_cons, Finset.sup_cons, ih]; rfl

/-- A one-operand host reduction by `maximumf` over ONE axis `a`, whose initial value is `⊥`, is at each
    result index `j` the supremum, over the coordinates `k` of axis `a`, of the operand at `j` with `k`
    inserted on axis `a`. -/
theorem hostReduce_maximumf_single {s t u : Shape} {a : Fin s.rank} {φ : FTy} (x : FVec Ideal s φ)
    (init : FVec Ideal u φ) (h' : s.ReducesTo [a] t) (h : s.Reduces [a] t) (hu : 0 < u.numel)
    (hinit : init (Shape.Idx.first hu) = ⊥) (j : t.Idx) :
    Host.reduce FloatOps.maximumf x init h' hu j
      = (Finset.univ : Finset (Fin (s.size a))).sup fun k => x (h.lift j k) := by
  rw [Host.reduce_eq_fold_single FloatOps.maximumf x init h' h hu j, hinit, fold_maximumf_bot_eq_sup]
  rfl

end Cert.LibMaxReduce

end
-- ==== Proof.RefValue.lean ====
/-
  The reference program computes the two-pass attention of the specification.

  The reference forms three affine projections of the input (queries, keys, values), the matrix of inner products of
  query rows with key rows, the maximum of each row of that matrix (a reduction by `max` from `-∞`, which is the
  supremum of the row), the exponentials of the differences to the row maximum, their row sums, the quotients, and
  finally the product of the quotient matrix with the values. Read one entry at a time, each of these stages is the
  corresponding function of the specification; the last one is `twoPass` of the three projections.
-/
import proofs.«164752_j45981919871429_2_alg».proof.Proof.Gen.ReferenceIdeal.Read
import proofs.«164752_j45981919871429_2_alg».proof.Proof.Spec
import proofs.«164752_j45981919871429_2_alg».proof.Proof.LibMaxReduce
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.AttnSpec
open scoped BigOperators

/-! ## The three projections -/

/-- The queries: entry `(i, c)` of `x · W + b`. -/
theorem proj_q (x0 : (⟨S16384x256, .f32⟩ : BufTy).Contents (Elt Ideal)) (x1 : (⟨S256x128, .f32⟩ : BufTy).Contents (Elt Ideal))
    (x2 : (⟨S128, .f32⟩ : BufTy).Contents (Elt Ideal)) (i : Fin 16384) (c : Fin 128) :
    val_main_v3 (F := Ideal) x0 x1 x2 (ix2 i c) = projAt x0 x1 x2 i c := by
  rw [val_main_v3_apply, val_main_v0_apply, val_main_v2_apply, val_main_v1_apply]
  have eb : idx_main_v1 (idx_main_v2 (ix2 i c)) = ix1 c := funext fun a => Fin.ext (by match a with | ⟨0, _⟩ => rfl)
  rw [eb]
  unfold projAt
  simp only [Ideal.addf_def]
  refine congrArg (· + x2 (ix1 c)) (Finset.sum_congr rfl fun k _ => ?_)
  have el : lidx_main_v0 (ix2 i c) k = ix2 i k := funext fun a => Fin.ext (by match a with | ⟨0, _⟩ => rfl | ⟨1, _⟩ => rfl)
  have er : ridx_main_v0 (ix2 i c) k = ix2 k c := funext fun a => Fin.ext (by match a with | ⟨0, _⟩ => rfl | ⟨1, _⟩ => rfl)
  rw [el, er]

/-- The keys are the same affine map with their own weights: the two stages are the same term. -/
theorem proj_k (x0 : (⟨S16384x256, .f32⟩ : BufTy).Contents (Elt Ideal)) (x3 : (⟨S256x128, .f32⟩ : BufTy).Contents (Elt Ideal))
    (x4 : (⟨S128, .f32⟩ : BufTy).Contents (Elt Ideal)) (i : Fin 16384) (c : Fin 128) :
    val_main_v7 (F := Ideal) x0 x3 x4 (ix2 i c) = projAt x0 x3 x4 i c :=
  proj_q x0 x3 x4 i c

/-- The values likewise. -/
theorem proj_v (x0 : (⟨S16384x256, .f32⟩ : BufTy).Contents (Elt Ideal)) (x5 : (⟨S256x128, .f32⟩ : BufTy).Contents (Elt Ideal))
    (x6 : (⟨S128, .f32⟩ : BufTy).Contents (Elt Ideal)) (i : Fin 16384) (c : Fin 128) :
    val_main_v11 (F := Ideal) x0 x5 x6 (ix2 i c) = projAt x0 x5 x6 i c :=
  proj_q x0 x5 x6 i c

/-! ## The scores -/

/-- Entry `(i, j)` of the product of the queries with the transposed keys is the inner product of query row `i`
    with key row `j`. -/
theorem score_eq (x0 : (⟨S16384x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (i j : Fin 16384) :
    val_main_v13 (F := Ideal) x0 x1 x2 x3 x4 (ix2 i j) = score (proj x0 x1 x2) (proj x0 x3 x4) i j := by
  rw [val_main_v13_apply]
  unfold score
  refine Finset.sum_congr rfl fun c _ => ?_
  have el : lidx_main_v13 (ix2 i j) c = ix2 i c := funext fun a => Fin.ext (by match a with | ⟨0, _⟩ => rfl | ⟨1, _⟩ => rfl)
  have er : idx_main_v12 (ridx_main_v13 (ix2 i j) c) = ix2 j c :=
    funext fun a => Fin.ext (by match a with | ⟨0, _⟩ => rfl | ⟨1, _⟩ => rfl)
  rw [val_main_v12_apply, el, er, proj_q, proj_k, proj_apply, proj_apply]

/-! ## The row maximum -/

/-- The reduction's initial value is `-∞`. -/
theorem init_bot : (val_main_cst (F := Ideal)) (Shape.Idx.first h_S_) = ⊥ := by
  rw [val_main_cst_apply, Ideal.ofBits_def]
  exact Cert.LibMaxReduce.ofBits_neg_inf_f32

/-- The reduction by `max` along the second axis, from `-∞`, is at row `i` the supremum of the row's scores. -/
theorem reduce_max_eq (x0 : (⟨S16384x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (i : Fin 16384) :
    val_main_v14 (F := Ideal) x0 x1 x2 x3 x4 (ix1 i)
      = Finset.univ.sup fun j : Fin 16384 => val_main_v13 (F := Ideal) x0 x1 x2 x3 x4 (ix2 i j) := by
  unfold val_main_v14
  generalize val_main_v13 (F := Ideal) x0 x1 x2 x3 x4 = y
  have h : S16384x16384.Reduces [1] S16384 := by decide
  rw [Cert.LibMaxReduce.hostReduce_maximumf_single y (val_main_cst (F := Ideal)) reducesTo_S16384x16384_S16384_d1 h h_S_
    init_bot (ix1 i)]
  show (Finset.univ : Finset (Fin 16384)).sup (fun k => y (h.lift (ix1 i) k)) = _
  refine congrArg (Finset.univ : Finset (Fin 16384)).sup (funext fun k => ?_)
  exact congrArg y (funext fun a => Fin.ext (by match a with | ⟨0, _⟩ => rfl | ⟨1, _⟩ => rfl))

/-- The row maximum the reference subtracts: the larger of `-∞` and the supremum of row `i`, which is the supremum. -/
theorem rowMax_eq (x0 : (⟨S16384x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (i : Fin 16384) :
    val_main_v16 (F := Ideal) x0 x1 x2 x3 x4 (ix1 i) = rowMax (proj x0 x1 x2) (proj x0 x3 x4) i := by
  rw [val_main_v16_apply, val_main_v15_apply, val_main_cst_0_apply, reduce_max_eq, Ideal.ofBits_def,
    Cert.LibMaxReduce.ofBits_neg_inf_f32, Ideal.maximumf_def, max_eq_right bot_le]
  unfold rowMax
  exact congrArg (Finset.univ : Finset (Fin 16384)).sup (funext fun j => score_eq x0 x1 x2 x3 x4 i j)

/-! ## The exponentials, their row sums, the weights -/

/-- Entry `(i, j)` of the exponentials: `exp` of the score less the row maximum. -/
theorem expo_eq (x0 : (⟨S16384x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (i j : Fin 16384) :
    val_main_v20 (F := Ideal) x0 x1 x2 x3 x4 (ix2 i j)
      = Ideal.exp (score (proj x0 x1 x2) (proj x0 x3 x4) i j - rowMax (proj x0 x1 x2) (proj x0 x3 x4) i) := by
  have e : idx_main_v17 (idx_main_v18 (ix2 i j)) = ix1 i := funext fun a => Fin.ext (by match a with | ⟨0, _⟩ => rfl)
  rw [val_main_v20_apply, val_main_v19_apply, val_main_v18_apply, val_main_v17_apply, e, rowMax_eq, score_eq,
    Ideal.hostUnary_exp_def, Ideal.subf_def]

/-- The sum of row `i` of the exponentials, from the initial value zero. -/
theorem rowSum_eq (x0 : (⟨S16384x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (i : Fin 16384) :
    val_main_v21 (F := Ideal) x0 x1 x2 x3 x4 (ix1 i) = rowSum (proj x0 x1 x2) (proj x0 x3 x4) i := by
  rw [val_main_v21_apply, val_main_cst_1_apply, Ideal.ofBits_def, Ideal.ofBits_zero_f32, zero_add]
  unfold rowSum
  refine Finset.sum_congr rfl fun j _ => ?_
  have e : idx_main_v21 (ix1 i) j = ix2 i j := funext fun a => Fin.ext (by match a with | ⟨0, _⟩ => rfl | ⟨1, _⟩ => rfl)
  rw [e, expo_eq]

/-- Entry `(i, j)` of the softmax weights: the exponential divided by its row's sum. -/
theorem weight_eq (x0 : (⟨S16384x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (i j : Fin 16384) :
    val_main_v24 (F := Ideal) x0 x1 x2 x3 x4 (ix2 i j)
      = Ideal.div (Ideal.exp (score (proj x0 x1 x2) (proj x0 x3 x4) i j - rowMax (proj x0 x1 x2) (proj x0 x3 x4) i))
          (rowSum (proj x0 x1 x2) (proj x0 x3 x4) i) := by
  have e : idx_main_v22 (idx_main_v23 (ix2 i j)) = ix1 i := funext fun a => Fin.ext (by match a with | ⟨0, _⟩ => rfl)
  rw [val_main_v24_apply, val_main_v23_apply, val_main_v22_apply, e, rowSum_eq, expo_eq, Ideal.hostDivf_def]

/-! ## The result -/

/-- Entry `(i, d)` of the product of the weights with the values. -/
theorem result_eq (x0 : (⟨S16384x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal)) (i : Fin 16384) (d : Fin 128) :
    val_main_v25 (F := Ideal) x0 x1 x2 x3 x4 x5 x6 (ix2 i d)
      = twoPassAt (proj x0 x1 x2) (proj x0 x3 x4) (proj x0 x5 x6) i d := by
  rw [val_main_v25_apply]
  unfold twoPassAt
  refine Finset.sum_congr rfl fun j _ => ?_
  have el : lidx_main_v25 (ix2 i d) j = ix2 i j := funext fun a => Fin.ext (by match a with | ⟨0, _⟩ => rfl | ⟨1, _⟩ => rfl)
  have er : ridx_main_v25 (ix2 i d) j = ix2 j d := funext fun a => Fin.ext (by match a with | ⟨0, _⟩ => rfl | ⟨1, _⟩ => rfl)
  rw [el, er, weight_eq, proj_v, proj_apply]

/-- The reference's result is the two-pass attention of the three projections. -/
theorem val_eq (x0 : (⟨S16384x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal)) :
    Cert.ReferenceIdeal.Read.val_main_v25 (F := Ideal) x0 x1 x2 x3 x4 x5 x6
      = Cert.AttnSpec.twoPass (Cert.AttnSpec.proj x0 x1 x2) (Cert.AttnSpec.proj x0 x3 x4) (Cert.AttnSpec.proj x0 x5 x6) := by
  funext j
  obtain ⟨i, d, rfl⟩ : ∃ (i : Fin 16384) (d : Fin 128), j = ix2 i d := ⟨j 0, j 1, eq_ix2 j⟩
  rw [twoPass_apply]
  exact result_eq x0 x1 x2 x3 x4 x5 x6 i d

end Cert.ReferenceIdeal.RefValue

end
-- ==== Proof.Claims.lean ====
/-
  The five claims of the certificate, assembled.

  The three frame claims are the two generated frame runs and the reference's generated run with its value conjunct
  dropped. The idealization rewrote nothing, so `preserves` is trivial. For the algebraic claim both programs, from
  memories that agree on the seven arguments, end with their result arrays at one function of those arguments: the
  two-pass attention of the three affine projections (queries from arguments 0, 1, 2; keys from 0, 3, 4; values
  from 0, 5, 6). On the kernel's side that is the value of its run on real inputs; on the reference's side its run's
  last stage read as the specification.
-/
import proofs.«164752_j45981919871429_2_alg».proof.Defs
import proofs.«164752_j45981919871429_2_alg».proof.Proof.Gen.Kernel.Frame
import proofs.«164752_j45981919871429_2_alg».proof.Proof.Gen.KernelIdeal.Frame
import proofs.«164752_j45981919871429_2_alg».proof.Proof.Gen.ReferenceIdeal
import proofs.«164752_j45981919871429_2_alg».proof.Proof.Gen.Pre_finite_inputs
import proofs.«164752_j45981919871429_2_alg».proof.Proof.Gen.ReferenceIdeal.Run
import proofs.«164752_j45981919871429_2_alg».proof.Proof.Gen.ReferenceIdeal.Read
import proofs.«164752_j45981919871429_2_alg».proof.Proof.KernelRun
import proofs.«164752_j45981919871429_2_alg».proof.Proof.KernelValue
import proofs.«164752_j45981919871429_2_alg».proof.Proof.RefValue

noncomputable section

namespace Cert.Proof.Claims

open Idealize.ShloMosaic Idealize.ShloMosaic.TcCoe Idealize.SL.Sem

/-- The kernel runs and leaves its arguments unchanged: the generated frame run. -/
theorem frame_p : Cert.frame_Kernel := fun m ρ _ => Cert.Kernel.Gen.frame m ρ

/-- The idealized kernel runs and leaves its arguments unchanged: the generated frame run. -/
theorem frame_pi : Cert.frame_KernelIdeal := fun m ρ _ => Cert.KernelIdeal.Gen.frame m ρ

/-- The reference runs and leaves its arguments unchanged: its generated run, the value conjunct dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On the extended reals, from memories agreeing on the arguments, both programs end with their result arrays at the
    two-pass attention of the three projections of the arguments, and with the arguments unchanged. -/
theorem algebraic : Cert.algebraic_KernelIdeal_ReferenceIdeal := by
  intro m ρ m' ρ' hpre hagree
  refine ⟨fun c => Cert.AttnSpec.twoPass (Cert.AttnSpec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.AttnSpec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.AttnSpec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.KernelValue.result_eq m ρ hpre c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, Cert.ReferenceIdeal.RefValue.val_eq,
      (hagree c).1, (hagree c).2.1, (hagree c).2.2.1, (hagree c).2.2.2.1, (hagree c).2.2.2.2.1,
      (hagree c).2.2.2.2.2.1, (hagree c).2.2.2.2.2.2]

end Cert.Proof.Claims

end
-- ==== Proof.lean ====
/-
  Fused projection and online-softmax attention against the two-pass reference, over the extended reals.

  Both programs compute, from an input matrix `x` (16384 × 256), three weight matrices and three bias vectors, the
  attention output `softmax(q · kᵀ) · v` with `q, k, v = x · W + b`.

  The reference does it in two passes per row: the row of scores, its maximum, the exponentials of the differences,
  their sum, the quotients, and the product of the weights with the values.

  The kernel does it in two launches. The first computes the three projections block by block. The second walks, for
  a block of 2048 query rows, the 16384 key rows in sixteen tiles of 1024, keeping per row a running maximum `m`, a
  running denominator `l` and a running weighted sum `acc`: with `m'` the maximum of `m` and the tile's scores,
  `l' = exp (m − m') · l + Σ exp (s − m')` and `acc' = exp (m − m') · acc + Σ exp (s − m') · v`; it writes `acc / l`.

  The two agree because, for finite inputs, every score is a real number, so after the first tile the running maximum is
  real, rescaling by `exp (m − m')` turns exponentials against the old maximum into exponentials against the new one
  (`exp a · exp b = exp (a + b)`), and at the end `acc / l = Σ (exp (s − M) / L) · v` by distributing the division
  over the finite real sum. Finiteness of the inputs is the precondition; it is used exactly there. A change of float
  format is the identity on the extended reals, a matrix product into a zero accumulator is the plain sum of products,
  and the order of a finite sum does not matter, so the tiling itself costs nothing.

  The modules: `Spec` (the function both compute), `RefValue` (the reference is it), `Region0` (the projection
  launch), `AttnLoop` / `AttnOut` (the attention body as a recursion on vectors), `Payload` / `AttnIndex` (that
  recursion entry by entry is the online recursion), `LibOnlineAttention` / `OnlineBridge` (the online recursion
  ends at the two-pass value), `Region1Cover` (blocks to the array), `KernelRun` / `KernelValue` (the kernel's
  result), `Finite` / `SpecReal` (finiteness), `Claims` (the five claims).
-/
import proofs.«164752_j45981919871429_2_alg».proof.Defs
import proofs.«164752_j45981919871429_2_alg».proof.Proof.Gen.Kernel
import proofs.«164752_j45981919871429_2_alg».proof.Proof.Gen.Kernel.Skeleton
import proofs.«164752_j45981919871429_2_alg».proof.Proof.Gen.Kernel.Loops
import proofs.«164752_j45981919871429_2_alg».proof.Proof.Gen.Kernel.Launch
import proofs.«164752_j45981919871429_2_alg».proof.Proof.Gen.Kernel.Points
import proofs.«164752_j45981919871429_2_alg».proof.Proof.Gen.Kernel.Frame
import proofs.«164752_j45981919871429_2_alg».proof.Proof.Gen.KernelIdeal
import proofs.«164752_j45981919871429_2_alg».proof.Proof.Gen.KernelIdeal.Skeleton
import proofs.«164752_j45981919871429_2_alg».proof.Proof.Gen.KernelIdeal.Loops
import proofs.«164752_j45981919871429_2_alg».proof.Proof.Gen.KernelIdeal.Launch
import proofs.«164752_j45981919871429_2_alg».proof.Proof.Gen.KernelIdeal.Points
import proofs.«164752_j45981919871429_2_alg».proof.Proof.Gen.KernelIdeal.Frame
import proofs.«164752_j45981919871429_2_alg».proof.Proof.Gen.ReferenceIdeal
import proofs.«164752_j45981919871429_2_alg».proof.Proof.Gen.Pre_finite_inputs
import proofs.«164752_j45981919871429_2_alg».proof.Proof.Gen.ReferenceIdeal.Run
import proofs.«164752_j45981919871429_2_alg».proof.Proof.Gen.ReferenceIdeal.Read
import proofs.«164752_j45981919871429_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
